-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x66049 : Shape := ⟨2, ![256, 66049]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x66049 : S_.BroadcastsInDim S256x66049 (![] : Fin 0 → Fin S256x66049.rank)
  reducesTo_S256x66049_S_d0_1 : S256x66049.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2048x256 .f32) (main_arg1 : FVec F S256x66049 .f32) (main_arg2 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x66049 .f32 := Host.absf main_arg1
  let main_cst_0 : FVec F S_ .f32 := constant S_ .f32 0x7F800000#32
  let main_v5 : FVec F S256x66049 .f32 := broadcastInDim S256x66049 ![] bcast_S_S256x66049 main_cst_0
  let main_v6 : IVec S256x66049 1 := cmpf .olt main_v4 main_v5
  let main_c_1 : IVec S_ 1 := constantI S_ 1 1#1
  let main_v7 : IVec S_ 1 := (fun x v => Host.reduce IntOp.andi x v reducesTo_S256x66049_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2048x256 : Shape := ⟨2, ![2048, 256]⟩
abbrev S256x66049 : Shape := ⟨2, ![256, 66049]⟩
abbrev S256 : Shape := ⟨1, ![256]⟩
abbrev S256x257x257 : Shape := ⟨3, ![256, 257, 257]⟩
abbrev S256x1x1 : Shape := ⟨3, ![256, 1, 1]⟩
abbrev S256x1x256 : Shape := ⟨3, ![256, 1, 256]⟩
abbrev S256x256 : Shape := ⟨2, ![256, 256]⟩
abbrev S256x256x1 : Shape := ⟨3, ![256, 256, 1]⟩
abbrev S256x256x256 : Shape := ⟨3, ![256, 256, 256]⟩
abbrev S256x65536 : Shape := ⟨2, ![256, 65536]⟩
abbrev S1x256 : Shape := ⟨2, ![1, 256]⟩
abbrev S2048x8x32 : Shape := ⟨3, ![2048, 8, 32]⟩
abbrev S8x2048x32 : Shape := ⟨3, ![8, 2048, 32]⟩
abbrev S1024x256 : Shape := ⟨2, ![1024, 256]⟩
abbrev S1x1024x32 : Shape := ⟨3, ![1, 1024, 32]⟩
abbrev S256x8192 : Shape := ⟨2, ![256, 8192]⟩
abbrev S1024x8192 : Shape := ⟨2, ![1024, 8192]⟩
abbrev S1024x32x256 : Shape := ⟨3, ![1024, 32, 256]⟩
abbrev S1024x32 : Shape := ⟨2, ![1024, 32]⟩
abbrev S1024x32x1 : Shape := ⟨3, ![1024, 32, 1]⟩
abbrev S2048x16x16 : Shape := ⟨3, ![2048, 16, 16]⟩

abbrev nBuf : Space → Nat
  | .hbm => 24
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S256x66049, .f32⟩
  | .hbm, ⟨2, _⟩ => ⟨S256, .f32⟩
  | .hbm, ⟨3, _⟩ => ⟨S256x257x257, .f32⟩
  | .hbm, ⟨4, _⟩ => ⟨S256x1x1, .f32⟩
  | .hbm, ⟨5, _⟩ => ⟨S256, .f32⟩
  | .hbm, ⟨6, _⟩ => ⟨S256x1x256, .f32⟩
  | .hbm, ⟨7, _⟩ => ⟨S256x256, .f32⟩
  | .hbm, ⟨8, _⟩ => ⟨S256x256x1, .f32⟩
  | .hbm, ⟨9, _⟩ => ⟨S256x256, .f32⟩
  | .hbm, ⟨10, _⟩ => ⟨S256x256, .f32⟩
  | .hbm, ⟨11, _⟩ => ⟨S256x256x256, .f32⟩
  | .hbm, ⟨12, _⟩ => ⟨S256x256x256, .bf16⟩
  | .hbm, ⟨13, _⟩ => ⟨S256x256x256, .bf16⟩
  | .hbm, ⟨14, _⟩ => ⟨S256x65536, .bf16⟩
  | .hbm, ⟨15, _⟩ => ⟨S256x256, .f32⟩
  | .hbm, ⟨16, _⟩ => ⟨S256x256, .bf16⟩
  | .hbm, ⟨17, _⟩ => ⟨S256, .f32⟩
  | .hbm, ⟨18, _⟩ => ⟨S1x256, .f32⟩
  | .hbm, ⟨19, _⟩ => ⟨S2048x256, .bf16⟩
  | .hbm, ⟨20, _⟩ => ⟨S2048x8x32, .bf16⟩
  | .hbm, ⟨21, _⟩ => ⟨S8x2048x32, .bf16⟩
  | .hbm, ⟨22, _⟩ => ⟨S2048x256, .f32⟩
  | .hbm, ⟨23, _⟩ => ⟨S2048x16x16, .f32⟩
  | .local _ .vmem, ⟨0, _⟩ => ⟨S1024x256, .bf16⟩
  | .local _ .vmem, ⟨1, _⟩ => ⟨S1024x256, .bf16⟩
  | .local _ .vmem, ⟨2, _⟩ => ⟨S1x1024x32, .bf16⟩
  | .local _ .vmem, ⟨3, _⟩ => ⟨S1x1024x32, .bf16⟩
  | .local _ .vmem, ⟨4, _⟩ => ⟨S256x8192, .bf16⟩
  | .local _ .vmem, ⟨5, _⟩ => ⟨S256x8192, .bf16⟩
  | .local _ .vmem, ⟨6, _⟩ => ⟨S256x256, .bf16⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S256x66049_S256x257x257 : S256x66049.ShapeCasts S256x257x257
  slices_S256x257x257_S256x1x1_0_0_0 : S256x257x257.Slices ![0, 0, 0] S256x1x1
  shapeCasts_S256x1x1_S256 : S256x1x1.ShapeCasts S256
  slices_S256x257x257_S256x1x256_0_0_1 : S256x257x257.Slices ![0, 0, 1] S256x1x256
  shapeCasts_S256x1x256_S256x256 : S256x1x256.ShapeCasts S256x256
  slices_S256x257x257_S256x256x1_0_1_0 : S256x257x257.Slices ![0, 1, 0] S256x256x1
  shapeCasts_S256x256x1_S256x256 : S256x256x1.ShapeCasts S256x256
  slices_S256x257x257_S256x256x256_0_1_1 : S256x257x257.Slices ![0, 1, 1] S256x256x256
  bitsLt_bf16_f32 : FTy.bits .bf16 < FTy.bits .f32
  transposes_S256x256x256_S256x256x256_2_1_0 : S256x256x256.Transposes [2, 1, 0] S256x256x256
  shapeCasts_S256x256x256_S256x65536 : S256x256x256.ShapeCasts S256x65536
  transposes_S256x256_S256x256_1_0 : S256x256.Transposes [1, 0] S256x256
  shapeCasts_S256_S1x256 : S256.ShapeCasts S1x256
  shapeCasts_S2048x256_S2048x8x32 : S2048x256.ShapeCasts S2048x8x32
  transposes_S2048x8x32_S8x2048x32_1_0_2 : S2048x8x32.Transposes [1, 0, 2] S8x2048x32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  shapeCasts_S1024x8192_S1024x32x256 : S1024x8192.ShapeCasts S1024x32x256
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1024x32x1 : S1024x32.ShapeCasts S1024x32x1
  broadcasts_S1024x32x1_S1024x32x256 : S1024x32x1.Broadcasts S1024x32x256
  reduces_S1024x32x256_S1024x256 : S1024x32x256.Reduces [1] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S2048x256_S2048x16x16 : S2048x256.ShapeCasts S2048x16x16
  dot_S1024x256_S256x8192_S1024x8192_1_0_0_1_n_n_wf : DotDims.WF S1024x256 S256x8192 S1024x8192 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x256.size a
  hwx0_0 : ∀ i : grid0.Coords, EltTy.bits .bf16 = 32 ∨ (Rect.block (s := S2048x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S8x2048x32.size a
  hwx0_1 : ∀ i : grid0.Coords, EltTy.bits .bf16 = 32 ∨ (Rect.block (s := S8x2048x32) S1x1024x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S256x65536.size a
  hwx0_2 : ∀ i : grid0.Coords, EltTy.bits .bf16 = 32 ∨ (Rect.block (s := S256x65536) S256x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S2048x256.size a
  hwx0_5 : ∀ i : grid0.Coords, EltTy.bits .f32 = 32 ∨ (Rect.block (s := S2048x256) S1024x256.size (cc0_transform_5 i) (hinb0_5 i)).WholeWords (EltTy.packing .f32)

variable [Facts₀]

def dot_S1024x256_S256x8192_S1024x8192_1_0_0_1_n_n : DotDims S1024x256 S256x8192 S1024x8192 where
  lhsContracting := [1]
  rhsContracting := [0]
  lhsNonContracting := [0]
  rhsNonContracting := [1]
  lhsBatch := []
  rhsBatch := []
  wf := dot_S1024x256_S256x8192_S1024x8192_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v16) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S2048x256 : Shape := ⟨2, ![2048, 256]⟩
abbrev S256x66049 : Shape := ⟨2, ![256, 66049]⟩
abbrev S256 : Shape := ⟨1, ![256]⟩
abbrev S_ : Shape := ⟨0, ![]⟩
abbrev S2048x1 : Shape := ⟨2, ![2048, 1]⟩
abbrev S2048x257 : Shape := ⟨2, ![2048, 257]⟩
abbrev S2048x257x1 : Shape := ⟨3, ![2048, 257, 1]⟩
abbrev S2048x1x257 : Shape := ⟨3, ![2048, 1, 257]⟩
abbrev S2048x257x257 : Shape := ⟨3, ![2048, 257, 257]⟩
abbrev S2048x66049 : Shape := ⟨2, ![2048, 66049]⟩
abbrev S66049x256 : Shape := ⟨2, ![66049, 256]⟩
abbrev S1x256 : Shape := ⟨2, ![1, 256]⟩
abbrev S2048x16x16 : Shape := ⟨3, ![2048, 16, 16]⟩

abbrev nBuf : Space → Nat
  | .hbm => 18
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x66049, .f32⟩
  | .hbm, ⟨2, _⟩ => ⟨S256, .f32⟩
  | .hbm, ⟨3, _⟩ => ⟨S_, .f32⟩
  | .hbm, ⟨4, _⟩ => ⟨S2048x1, .f32⟩
  | .hbm, ⟨5, _⟩ => ⟨S2048x257, .f32⟩
  | .hbm, ⟨6, _⟩ => ⟨S2048x257x1, .f32⟩
  | .hbm, ⟨7, _⟩ => ⟨S2048x1x257, .f32⟩
  | .hbm, ⟨8, _⟩ => ⟨S2048x257x257, .f32⟩
  | .hbm, ⟨9, _⟩ => ⟨S2048x257x257, .f32⟩
  | .hbm, ⟨10, _⟩ => ⟨S2048x257x257, .f32⟩
  | .hbm, ⟨11, _⟩ => ⟨S2048x66049, .f32⟩
  | .hbm, ⟨12, _⟩ => ⟨S66049x256, .f32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | .hbm, ⟨17, _⟩ => ⟨S2048x16x16, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S2048x1 : S_.BroadcastsInDim S2048x1 (![] : Fin 0 → Fin S2048x1.rank)
  concatenates_S2048x1_S2048x256_S2048x257_d1 : Shape.Concatenates [S2048x1, S2048x256] S2048x257 1
  bcast_S2048x257_S2048x257x1_0_1 : S2048x257.BroadcastsInDim S2048x257x1 (![0, 1] : Fin 2 → Fin S2048x257x1.rank)
  bcast_S2048x257_S2048x1x257_0_2 : S2048x257.BroadcastsInDim S2048x1x257 (![0, 2] : Fin 2 → Fin S2048x1x257.rank)
  bcast_S2048x257x1_S2048x257x257_0_1_2 : S2048x257x1.BroadcastsInDim S2048x257x257 (![0, 1, 2] : Fin 3 → Fin S2048x257x257.rank)
  bcast_S2048x1x257_S2048x257x257_0_1_2 : S2048x1x257.BroadcastsInDim S2048x257x257 (![0, 1, 2] : Fin 3 → Fin S2048x257x257.rank)
  shapeCasts_S2048x257x257_S2048x66049 : S2048x257x257.ShapeCasts S2048x66049
  transposes_S256x66049_S66049x256_1_0 : S256x66049.Transposes [1, 0] S66049x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  shapeCasts_S2048x256_S2048x16x16 : S2048x256.ShapeCasts S2048x16x16
  dot_S2048x66049_S66049x256_S2048x256_1_0_0_1_n_n_wf : DotDims.WF S2048x66049 S66049x256 S2048x256 [1] [0] [0] [1] [] []

variable [Facts₀]

def dot_S2048x66049_S66049x256_S2048x256_1_0_0_1_n_n : DotDims S2048x66049 S66049x256 S2048x256 where
  lhsContracting := [1]
  rhsContracting := [0]
  lhsNonContracting := [0]
  rhsNonContracting := [1]
  lhsBatch := []
  rhsBatch := []
  wf := dot_S2048x66049_S66049x256_S2048x256_1_0_0_1_n_n_wf

class Facts : Prop extends Facts₀ where

variable [Facts]
-- ==== Proof.CasesK.lean ====
/-
  The three control cases of the cross-matrix kernel body, over the grid (batch tile, i-tile) of 2 x 8 = 16 points
  run in row-major order: at a point whose i-tile index is 0 the accumulator is (re)started with the linear term plus the
  first quadratic partial sum; at every later i-tile the partial sum is added to it; at the last i-tile (index 7) the
  accumulator plus the constant row is also stored into the output block. Here: the three conditions as the body computes
  them from the grid coordinates, their closed forms over the linear point number t (i-tile index = t mod 8), where the
  output window is idle / written back, and the class invariant with the scratch accumulator spelt as a memref.
-/
import proofs.«100051_j31550829756606_2_alg».proof.Proof.Gen.Kernel.Frame
import proofs.«100051_j31550829756606_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- "the i-tile index is 0", as the body's scalar chain computes it. -/
abbrev isFirst (i : grid0.Coords) : Prop :=
  (Scalar.cmpi .ne (Scalar.extui (Scalar.cmpi .eq (BitVec.ofNat 32 (i 1).val) 0#32)) 0#32) = 1#1
/-- "the i-tile index is positive". -/
abbrev isLater (i : grid0.Coords) : Prop :=
  (Scalar.cmpi .ne (Scalar.extui (Scalar.cmpi .sgt (BitVec.ofNat 32 (i 1).val) 0#32)) 0#32) = 1#1
/-- "the i-tile index is 7 (the last)". -/
abbrev isLast (i : grid0.Coords) : Prop := k0_cond3 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLater_iff : ∀ t : Fin cfg0.N, isLater (grid0.coords t) ↔ t.val % 8 ≠ 0 :=
  (by decide +kernel : ∀ t : Fin grid0.N, isLater (grid0.coords t) ↔ t.val % 8 ≠ 0)
theorem isLast_iff : ∀ t : Fin cfg0.N, isLast (grid0.coords t) ↔ t.val % 8 = 7 :=
  (by decide +kernel : ∀ t : Fin grid0.N, isLast (grid0.coords t) ↔ t.val % 8 = 7)

/-- The five input windows are never idle. -/
theorem live_in : ∀ t : Fin cfg0.N, cfg0.idle 0 (grid0.coords t) = false ∧ cfg0.idle 1 (grid0.coords t) = false
    ∧ cfg0.idle 2 (grid0.coords t) = false ∧ cfg0.idle 3 (grid0.coords t) = false ∧ cfg0.idle 4 (grid0.coords t) = false := by
  decide +kernel
/-- Off the last i-tile the body stores nothing into the output block, and the pipeline does not write it back. -/
theorem out_idle : ∀ t : Fin cfg0.N, ¬isLast (grid0.coords t) → cfg0.idle 5 (grid0.coords t) = true := by decide +kernel
theorem out_noFlush : ∀ t : Fin cfg0.N, ¬isLast (grid0.coords t) → (cfg0.win 5).flush t = false := by decide +kernel
/-- At the last i-tile it stores the whole block. -/
theorem out_live : ∀ t : Fin cfg0.N, isLast (grid0.coords t) → cfg0.idle 5 (grid0.coords t) = false := by decide +kernel

/-- The windows' current staging memrefs at a point, as the pipeline passes them to the body, and their wholeness. -/
abbrev mx (t : Fin cfg0.N) : Memref sig .tc .vmem S1024x256 .bf16 := win0_0.stage (cfg0.slots t 0)
abbrev hmx (t : Fin cfg0.N) : (mx t).IsWhole := hstage0_0 ((cfg0.slots t 0).cast nbuf0_0)
abbrev mxi (t : Fin cfg0.N) : Memref sig .tc .vmem S1x1024x32 .bf16 := win0_1.stage (cfg0.slots t 1)
abbrev hmxi (t : Fin cfg0.N) : (mxi t).IsWhole := hstage0_1 ((cfg0.slots t 1).cast nbuf0_1)
abbrev mw (t : Fin cfg0.N) : Memref sig .tc .vmem S256x8192 .bf16 := win0_2.stage (cfg0.slots t 2)
abbrev hmw (t : Fin cfg0.N) : (mw t).IsWhole := hstage0_2 ((cfg0.slots t 2).cast nbuf0_2)
abbrev ml (t : Fin cfg0.N) : Memref sig .tc .vmem S256x256 .bf16 := win0_3.stage (cfg0.slots t 3)
abbrev hml (t : Fin cfg0.N) : (ml t).IsWhole := hstage0_3 ((cfg0.slots t 3).cast nbuf0_3)
abbrev mc (t : Fin cfg0.N) : Memref sig .tc .vmem S1x256 .f32 := win0_4.stage (cfg0.slots t 4)
abbrev hmc (t : Fin cfg0.N) : (mc t).IsWhole := hstage0_4 ((cfg0.slots t 4).cast nbuf0_4)
abbrev mo (t : Fin cfg0.N) : Memref sig .tc .vmem S1024x256 .f32 := win0_5.stage (cfg0.slots t 5)
abbrev hmo (t : Fin cfg0.N) : (mo t).IsWhole := hstage0_5 ((cfg0.slots t 5).cast nbuf0_5)
/-- The scratch accumulator, a whole scoped buffer of the kernel's own, and the view its contents are stated through. -/
abbrev macc : Memref sig .tc .vmem S1024x256 .f32 := Memref.whole cc0_scratch0
abbrev vacc : View sig .tc .vmem S1024x256 .f32 := macc.view
/-- One staging buffer of the output window, through which its contents are stated. -/
abbrev vout : View sig .tc .vmem S1024x256 .f32 := (Memref.whole cc0_stg5_0 : Memref sig .tc .vmem S1024x256 .f32).view

/-- The class invariant: the accumulator owned at some contents, and the generator register at some state. -/
theorem classInv_eq (c : Dev nD) :
    (Pipeline.ΦA spec0 c : sProp 𝕄)
      = iprop(iprop((∃ d, owns (c : Thread nD τ) macc fullShare d)) ∗ (∃ r, prngReg c r)) := by
  unfold Pipeline.ΦA; rw [scopedRest0_eq]; simp only [macc, owns_whole]; try rfl

end Cert.Kernel.Hand

end
-- ==== Proof.RunFirstK.lean ====
/-
  The body at a point whose i-tile index is 0: it loads the batch tile x, the weight tile and the packed x_i slice,
  takes the first branch only — loads the linear weights, and stores (x · Wlin^T) + (first quadratic partial sum) over
  the whole accumulator — and leaves the output block's staging buffer untouched. The accumulator may hold anything
  before. What the accumulator ends with is recorded as the list of its stores (one, covering it).
-/
import proofs.«100051_j31550829756606_2_alg».proof.Proof.CasesK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's run in the first case, on whole staging memrefs: the inputs at their contents and the output buffer at
    any contents `o` are handed back as found; the accumulator, at anything before, ends with the stores `LS` written. -/
noncomputable def runFirst (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : isFirst i) (h2 : ¬isLater i) (h3 : ¬isLast i) (x : Vec F S1024x256 .bf16) (xi : Vec F S1x1024x32 .bf16) (w : Vec F S256x8192 .bf16) (wl : Vec F S256x256 .bf16) (cst : Vec F S1x256 .f32) :
    { LS : List (View.Piece (Elt F) S1024x256 .f32) //
      ∀ (o : Vec F S1024x256 .f32) (E : Set ℕ) (K : PUnit → sProp 𝕄),
        iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ (∃ d, owns (c : Thread nD τ) arg8 fullShare d)
            ∗ (iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ (∃ f, arg8.view.loc (c : Thread nD τ) ↦[arg8.view.set]{fullShare} arg8.view.writes (Elt F) f LS)) -∗ K ⟨⟩))
          ⊢ wp frame (wpE (defs₀ (F := F)) Variants.none c none) E (cc0__cross_kernel i arg2 harg2 arg3 harg3 arg4 harg4 arg5 harg5 arg6 harg6 arg7 harg7 arg8 harg8) K } := by
  refine ⟨?_, fun o E K => ?run⟩
  case run =>
    simp only [cc0__cross_kernel_eq_skeleton]; unfold cc0__cross_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.RunLaterK.lean ====
/-
  The body at a point whose i-tile index is strictly between 0 and 7: it loads x, the weight tile and the x_i slice, takes
  the second branch only — reads the accumulator and stores (accumulator + this tile's quadratic partial sum) over the
  whole of it — and leaves the output block's staging buffer untouched.
-/
import proofs.«100051_j31550829756606_2_alg».proof.Proof.RunFirstK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's run in the middle case: the inputs and the output buffer (at any contents `o`) handed back as found; the
    accumulator, at `acc` before, ends with the stores `LS` written. -/
noncomputable def runLater (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : ¬isLast i) (x : Vec F S1024x256 .bf16) (xi : Vec F S1x1024x32 .bf16) (w : Vec F S256x8192 .bf16) (wl : Vec F S256x256 .bf16) (cst : Vec F S1x256 .f32) (acc : Vec F S1024x256 .f32) :
    { LS : List (View.Piece (Elt F) S1024x256 .f32) //
      ∀ (o : Vec F S1024x256 .f32) (E : Set ℕ) (K : PUnit → sProp 𝕄),
        iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ owns (c : Thread nD τ) arg8 fullShare acc
            ∗ (iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ (∃ f, arg8.view.loc (c : Thread nD τ) ↦[arg8.view.set]{fullShare} arg8.view.writes (Elt F) f LS)) -∗ K ⟨⟩))
          ⊢ wp frame (wpE (defs₀ (F := F)) Variants.none c none) E (cc0__cross_kernel i arg2 harg2 arg3 harg3 arg4 harg4 arg5 harg5 arg6 harg6 arg7 harg7 arg8 harg8) K } := by
  refine ⟨?_, fun o E K => ?run⟩
  case run =>
    simp only [cc0__cross_kernel_eq_skeleton]; unfold cc0__cross_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Hand

end
-- ==== Proof.RunLastK.lean ====
/-
  The body at a point whose i-tile index is 7: it loads x, the weight tile and the x_i slice, takes the second branch —
  stores (accumulator + the last quadratic partial sum) over the whole accumulator — and the third: reads the accumulator
  back, loads the constant row, and stores (accumulator + the row broadcast down the batch tile) over the whole output
  block, whatever its staging buffer held.
-/
import proofs.«100051_j31550829756606_2_alg».proof.Proof.RunLaterK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body's run in the last case: the inputs handed back as found; the output buffer, at anything before, ends with
    the stores `LO` written, and the accumulator, at `acc` before, with the stores `LS`. -/
noncomputable def runLast (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ (∃ d, owns (c : Thread nD τ) arg7 fullShare d) ∗ owns (c : Thread nD τ) arg8 fullShare acc
            ∗ (iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__cross_kernel i arg2 harg2 arg3 harg3 arg4 harg4 arg5 harg5 arg6 harg6 arg7 harg7 arg8 harg8) K } := by
  refine ⟨?_, ?_, fun E K => ?run⟩
  case run =>
    simp only [cc0__cross_kernel_eq_skeleton]; unfold cc0__cross_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.Kernel.Hand

end
-- ==== Proof.PiecesK.lean ====
/-
  What the stores of each case amount to: in every case the accumulator's stores are one store through the whole-buffer
  rectangle, so they cover it and leave exactly the stored vector — the linear term plus the first partial sum (first
  case), the previous accumulator plus the tile's partial sum (later cases); in the last case the output block's one
  store likewise leaves (new accumulator + constant row), the accumulator read back being what was just stored.
-/
import proofs.«100051_j31550829756606_2_alg».proof.Proof.RunLastK
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

theorem zz : (![0, 0] : Fin 2 → Nat) = fun _ => 0 := funext fun a => by fin_cases a <;> rfl
theorem zz3 : (![0, 0, 0] : Fin 3 → Nat) = fun _ => 0 := funext fun a => by fin_cases a <;> rfl

theorem runFirst_cover (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : isFirst i) (h2 : ¬isLater i) (h3 : ¬isLast i) (x : Vec F S1024x256 .bf16) (xi : Vec F S1x1024x32 .bf16) (w : Vec F S256x8192 .bf16) (wl : Vec F S256x256 .bf16) (cst : Vec F S1x256 .f32) (y : S1024x256.Idx) :
    ∃ pc ∈ (runFirst c i arg2 harg2 arg3 harg3 arg4 harg4 arg5 harg5 arg6 harg6 arg7 harg7 arg8 harg8 h1 h2 h3 x xi w wl cst).1, y ∈ pc.1.set :=
  View.cover_of_tiledL _ S1024x256.size (by sl_kernel_rfl) y

theorem runFirst_canon (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : isFirst i) (h2 : ¬isLater i) (h3 : ¬isLast i) (x : Vec F S1024x256 .bf16) (xi : Vec F S1x1024x32 .bf16) (w : Vec F S256x8192 .bf16) (wl : Vec F S256x256 .bf16) (cst : Vec F S1x256 .f32) :
    View.canon (runFirst c i arg2 harg2 arg3 harg3 arg4 harg4 arg5 harg5 arg6 harg6 arg7 harg7 arg8 harg8 h1 h2 h3 x xi w wl cst).1 = k0_pay3 x w xi wl := by
  unfold runFirst
  dsimp only
  sl_unfold_words
  rw [View.canon_unit_zero zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

theorem runLater_cover (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : ¬isLast i) (x : Vec F S1024x256 .bf16) (xi : Vec F S1x1024x32 .bf16) (w : Vec F S256x8192 .bf16) (wl : Vec F S256x256 .bf16) (cst : Vec F S1x256 .f32) (acc : Vec F S1024x256 .f32) (y : S1024x256.Idx) :
    ∃ pc ∈ (runLater c i arg2 harg2 arg3 harg3 arg4 harg4 arg5 harg5 arg6 harg6 arg7 harg7 arg8 harg8 h1 h2 h3 x xi w wl cst acc).1, y ∈ pc.1.set :=
  View.cover_of_tiledL _ S1024x256.size (by sl_kernel_rfl) y

theorem runLater_canon (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : ¬isLast i) (x : Vec F S1024x256 .bf16) (xi : Vec F S1x1024x32 .bf16) (w : Vec F S256x8192 .bf16) (wl : Vec F S256x256 .bf16) (cst : Vec F S1x256 .f32) (acc : Vec F S1024x256 .f32) :
    View.canon (runLater c i arg2 harg2 arg3 harg3 arg4 harg4 arg5 harg5 arg6 harg6 arg7 harg7 arg8 harg8 h1 h2 h3 x xi w wl cst acc).1 = k0_pay4 x w xi acc := by
  unfold runLater
  dsimp only
  sl_unfold_words
  rw [View.canon_unit_zero zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

theorem runLast_cover_out (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) (y : S1024x256.Idx) :
    ∃ pc ∈ (runLast c i arg2 harg2 arg3 harg3 arg4 harg4 arg5 harg5 arg6 harg6 arg7 harg7 arg8 harg8 h1 h2 h3 x xi w wl cst acc).1, y ∈ pc.1.set :=
  View.cover_of_tiledL _ S1024x256.size (by sl_kernel_rfl) y
theorem runLast_cover_acc (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) (y : S1024x256.Idx) :
    ∃ pc ∈ (runLast c i arg2 harg2 arg3 harg3 arg4 harg4 arg5 harg5 arg6 harg6 arg7 harg7 arg8 harg8 h1 h2 h3 x xi w wl cst acc).2.1, y ∈ pc.1.set :=
  View.cover_of_tiledL _ S1024x256.size (by sl_kernel_rfl) y

theorem runLast_canon_acc (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) :
    View.canon (runLast c i arg2 harg2 arg3 harg3 arg4 harg4 arg5 harg5 arg6 harg6 arg7 harg7 arg8 harg8 h1 h2 h3 x xi w wl cst acc).2.1 = k0_pay4 x w xi acc := by
  unfold runLast
  dsimp only
  sl_unfold_words
  rw [View.canon_unit_zero zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

theorem runLast_canon_out (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) :
    View.canon (runLast c i arg2 harg2 arg3 harg3 arg4 harg4 arg5 harg5 arg6 harg6 arg7 harg7 arg8 harg8 h1 h2 h3 x xi w wl cst acc).1 = k0_pay5 (k0_pay4 x w xi acc) cst := by
  unfold runLast
  dsimp only
  sl_unfold_words
  rw [View.canon_unit_zero zz, View.readCov_unit_zero _ zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

end Cert.Kernel.Hand

end
-- ==== Proof.BodyK.lean ====
/-
  The accumulator point by point, the pipeline's proof data, and the body obligation.
  After the point numbered n (batch tile n / 8, i-tile n mod 8) the scratch accumulator holds: at i-tile 0 the linear term
  of the batch tile plus the first quadratic partial sum; at a later i-tile what the point before left plus this tile's
  partial sum. The output block's staging buffer holds, after a point at i-tile 7, that accumulator plus the constant row;
  at the other points it is idle (nothing stored, nothing written back). The invariant carried between points is the
  accumulator at these contents; before the very first point, and after the last, it is forgotten.
-/
import proofs.«100051_j31550829756606_2_alg».proof.Proof.PiecesK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch accumulator after the point numbered `n`. -/
def accAt (c : Dev nD) : (n : ℕ) → n < cfg0.N → Vec F S1024x256 .f32
  | 0, hn => k0_pay3 (iblk m c 0 ⟨0, hn⟩) (iblk m c 2 ⟨0, hn⟩) (iblk m c 1 ⟨0, hn⟩) (iblk m c 3 ⟨0, hn⟩)
  | n + 1, hn =>
    if (n + 1) % 8 = 0 then
      k0_pay3 (iblk m c 0 ⟨n + 1, hn⟩) (iblk m c 2 ⟨n + 1, hn⟩) (iblk m c 1 ⟨n + 1, hn⟩) (iblk m c 3 ⟨n + 1, hn⟩)
    else
      k0_pay4 (iblk m c 0 ⟨n + 1, hn⟩) (iblk m c 2 ⟨n + 1, hn⟩) (iblk m c 1 ⟨n + 1, hn⟩) (accAt c n (Nat.lt_of_succ_lt hn))

/-- At i-tile 0 the accumulator is restarted. -/
theorem accAt_first (c : Dev nD) (t : Fin cfg0.N) (h : t.val % 8 = 0) :
    accAt m c t.val t.isLt = k0_pay3 (iblk m c 0 t) (iblk m c 2 t) (iblk m c 1 t) (iblk m c 3 t) := by
  obtain ⟨n, hn⟩ := t
  cases n with
  | zero => rfl
  | succ n => exact if_pos h

/-- At a later i-tile it is what the point before left plus the tile's partial sum. -/
theorem accAt_later (c : Dev nD) (t : Fin cfg0.N) (h : t.val % 8 ≠ 0) :
    accAt m c t.val t.isLt
      = k0_pay4 (iblk m c 0 t) (iblk m c 2 t) (iblk m c 1 t) (accAt m c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the class's (the accumulator at anything); afterwards the
    accumulator at what the point before left, and the generator register at some state. -/
def accInv (c : Dev nD) : (n : ℕ) → n ≤ cfg0.N → sProp 𝕄
  | 0, _ => Pipeline.ΦA spec0 c
  | n + 1, hn => iprop(iprop(owns (c : Thread nD τ) macc fullShare (accAt m c n hn)) ∗ (∃ r, prngReg c r))

theorem accInv_succ (c : Dev nD) (n : ℕ) (hn : n < cfg0.N) :
    accInv m c (n + 1) hn = iprop(iprop(owns (c : Thread nD τ) macc fullShare (accAt m c n hn)) ∗ (∃ r, prngReg c r)) := rfl

theorem accInv_pos (c : Dev nD) (n : ℕ) (h : n ≤ cfg0.N) (hz : n ≠ 0) :
    accInv m c n h = iprop(iprop(owns (c : Thread nD τ) macc fullShare (accAt m c (n - 1) (by omega))) ∗ (∃ r, prngReg c r)) := by
  cases n with
  | zero => exact absurd rfl hz
  | succ n => rfl

/-- At any position the invariant gives the accumulator at SOME contents. -/
theorem accInv_any (c : Dev nD) (n : ℕ) (h : n ≤ cfg0.N) :
    accInv m c n h ⊢ iprop(iprop((∃ d, owns (c : Thread nD τ) macc fullShare d)) ∗ (∃ r, prngReg c r)) := by
  cases n with
  | zero => rw [show accInv m c 0 h = Pipeline.ΦA spec0 c from rfl, classInv_eq]
  | succ n =>
    rw [accInv_succ]
    iintro ⟨HS, Hg⟩
    isplitl [HS]
    · iexists _; iexact HS
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (accAt m c t.val t.isLt) (iblk m c 4 t)
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) :
    (dats m 0 c).after 5 t = k0_pay5 (accAt m c t.val t.isLt) (iblk m c 4 t) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d

theorem leaves_in0 (c : Dev nD) (t : Fin cfg0.N) :
    (dats m 0 c).leavesExact 0 t = owns (c : Thread nD τ) ((cfg0.win 0).stage (cfg0.slots t 0)) fullShare (iblk m c 0 t) := by
  unfold Dat.leavesExact; rw [(live_in t).1, after_in0]
theorem leaves_in1 (c : Dev nD) (t : Fin cfg0.N) :
    (dats m 0 c).leavesExact 1 t = owns (c : Thread nD τ) ((cfg0.win 1).stage (cfg0.slots t 1)) fullShare (iblk m c 1 t) := by
  unfold Dat.leavesExact; rw [(live_in t).2.1, after_in1]
theorem leaves_in2 (c : Dev nD) (t : Fin cfg0.N) :
    (dats m 0 c).leavesExact 2 t = owns (c : Thread nD τ) ((cfg0.win 2).stage (cfg0.slots t 2)) fullShare (iblk m c 2 t) := by
  unfold Dat.leavesExact; rw [(live_in t).2.2.1, after_in2]
theorem leaves_in3 (c : Dev nD) (t : Fin cfg0.N) :
    (dats m 0 c).leavesExact 3 t = owns (c : Thread nD τ) ((cfg0.win 3).stage (cfg0.slots t 3)) fullShare (iblk m c 3 t) := by
  unfold Dat.leavesExact; rw [(live_in t).2.2.2.1, after_in3]
theorem leaves_in4 (c : Dev nD) (t : Fin cfg0.N) :
    (dats m 0 c).leavesExact 4 t = owns (c : Thread nD τ) ((cfg0.win 4).stage (cfg0.slots t 4)) fullShare (iblk m c 4 t) := by
  unfold Dat.leavesExact; rw [(live_in t).2.2.2.2, after_in4]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mxi t) fullShare ((dats m 0 c).before 1 t d))
    ∗ (∃ d, owns (c : Thread nD τ) (mw t) fullShare ((dats m 0 c).before 2 t d))
    ∗ (∃ d, owns (c : Thread nD τ) (ml t) fullShare ((dats m 0 c).before 3 t d))
    ∗ (∃ d, owns (c : Thread nD τ) (mc t) fullShare ((dats m 0 c).before 4 t d))
    ∗ (∃ d, owns (c : Thread nD τ) (mo t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' staging memrefs hold their blocks; the point's i-tile index (its number mod 8)
    says which case it is in; the invariant hands the body the accumulator (at anything at i-tile 0, else at what the point
    before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).owesAt () t.succ = (dats m 0 c).owesAt () t.castSucc from rfl]
  rw [show (dats m 0 c).Φ t.succ = accInv m c (t.val + 1) t.isLt from rfl, accInv_succ]
  rw [leaves_in0, leaves_in1, leaves_in2, leaves_in3, leaves_in4, inv_castSucc]
  have hN : t.val < 16 := lt_of_lt_of_eq t.isLt (show cfg0.N = 16 from N_0)
  by_cases hF : t.val % 8 = 0
  · have h1 : isFirst (grid0.coords t) := (isFirst_iff t).mpr hF
    have h2 : ¬isLater (grid0.coords t) := fun h => (isLater_iff t).mp h hF
    have h3 : ¬isLast (grid0.coords t) := fun h => by have := (isLast_iff t).mp h; omega
    rw [Dat.leavesExact_idle (dats m 0 c) 5 t (out_idle t h3) (out_noFlush t h3), accAt_first m c t hF]
    iintro ⟨HΦ, Ho, ⟨%d0, H0⟩, ⟨%d1, H1⟩, ⟨%d2, H2⟩, ⟨%d3, H3⟩, ⟨%d4, H4⟩, ⟨%d5, H5⟩⟩
    ihave HΦ := (accInv_any m c _ _) $$ HΦ
    icases HΦ with ⟨HS, Hg⟩
    iapply ((runFirst c (grid0.coords t) _ _ _ _ _ _ _ _ _ _ _ _ _ _ h1 h2 h3 (iblk m c 0 t) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · unfold owns; iexists _; isplitr
        swap; · iexact HS
        ipureintro
        exact (View.read_writes_eq_canon _ _ _ (runFirst_cover c _ _ _ _ _ _ _ _ _ _ _ _ _ _ _ h1 h2 h3 _ _ _ _ _)).trans (runFirst_canon c _ _ _ _ _ _ _ _ _ _ _ _ _ _ _ h1 h2 h3 _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h1 : ¬isFirst (grid0.coords t) := fun h => hF ((isFirst_iff t).mp h)
    have h2 : isLater (grid0.coords t) := (isLater_iff t).mpr hF
    have hz : t.val ≠ 0 := fun h => hF (by rw [h])
    rw [accInv_pos m c _ _ hz, accAt_later m c t hF]
    by_cases hL : t.val % 8 = 7
    · have h3 : isLast (grid0.coords t) := (isLast_iff t).mpr hL
      rw [show (dats m 0 c).leavesExact 5 t = owns (c : Thread nD τ) (mo t) fullShare ((dats m 0 c).after 5 t) from by
        unfold Dat.leavesExact; rw [out_live t h3], after_out, accAt_later m c t hF]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ h1 h2 h3 (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS Hg]
      · isplitl [HS]
        · unfold owns; iexists _; isplitr
          swap; · iexact HS
          ipureintro
          exact (View.read_writes_eq_canon _ _ _ (runLast_cover_acc c _ _ _ _ _ _ _ _ _ _ _ _ _ _ _ h1 h2 h3 _ _ _ _ _ _)).trans (runLast_canon_acc c _ _ _ _ _ _ _ _ _ _ _ _ _ _ _ h1 h2 h3 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_eq_canon _ _ _ (runLast_cover_out c _ _ _ _ _ _ _ _ _ _ _ _ _ _ _ h1 h2 h3 _ _ _ _ _ _)).trans (runLast_canon_out c _ _ _ _ _ _ _ _ _ _ _ _ _ _ _ h1 h2 h3 _ _ _ _ _ _)
    · have h3 : ¬isLast (grid0.coords t) := fun h => hL ((isLast_iff t).mp h)
      rw [Dat.leavesExact_idle (dats m 0 c) 5 t (out_idle t h3) (out_noFlush t h3)]
      iintro ⟨⟨HS, Hg⟩, Ho, ⟨%d0, H0⟩, ⟨%d1, H1⟩, ⟨%d2, H2⟩, ⟨%d3, H3⟩, ⟨%d4, H4⟩, ⟨%d5, H5⟩⟩
      iapply ((runLater c (grid0.coords t) _ _ _ _ _ _ _ _ _ _ _ _ _ _ h1 h2 h3 (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro
          exact (View.read_writes_eq_canon _ _ _ (runLater_cover c _ _ _ _ _ _ _ _ _ _ _ _ _ _ _ h1 h2 h3 _ _ _ _ _ _)).trans (runLater_canon c _ _ _ _ _ _ _ _ _ _ _ _ _ _ _ h1 h2 h3 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = accInv m c (Fin.last cfg0.N).val (Nat.le_of_lt_succ (Fin.last cfg0.N).isLt) from rfl, classInv_eq]
  exact accInv_any m c _ _

/-! ## The run and the frame -/

set_option backward.isDefEq.respectTransparency.types false in
/-- Every weakly fair execution of @main terminates, with every array of the pipeline at what the library computes from
    the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.CasesI.lean ====
/-
  The three control cases of the cross-matrix kernel body, over the grid (batch tile, i-tile) of 2 x 8 = 16 points
  run in row-major order: at a point whose i-tile index is 0 the accumulator is (re)started with the linear term plus the
  first quadratic partial sum; at every later i-tile the partial sum is added to it; at the last i-tile (index 7) the
  accumulator plus the constant row is also stored into the output block. Here: the three conditions as the body computes
  them from the grid coordinates, their closed forms over the linear point number t (i-tile index = t mod 8), where the
  output window is idle / written back, and the class invariant with the scratch accumulator spelt as a memref.
-/
import proofs.«100051_j31550829756606_2_alg».proof.Proof.Gen.KernelIdeal.Frame
import proofs.«100051_j31550829756606_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- "the i-tile index is 0", as the body's scalar chain computes it. -/
abbrev isFirst (i : grid0.Coords) : Prop :=
  (Scalar.cmpi .ne (Scalar.extui (Scalar.cmpi .eq (BitVec.ofNat 32 (i 1).val) 0#32)) 0#32) = 1#1
/-- "the i-tile index is positive". -/
abbrev isLater (i : grid0.Coords) : Prop :=
  (Scalar.cmpi .ne (Scalar.extui (Scalar.cmpi .sgt (BitVec.ofNat 32 (i 1).val) 0#32)) 0#32) = 1#1
/-- "the i-tile index is 7 (the last)". -/
abbrev isLast (i : grid0.Coords) : Prop := k0_cond3 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLater_iff : ∀ t : Fin cfg0.N, isLater (grid0.coords t) ↔ t.val % 8 ≠ 0 :=
  (by decide +kernel : ∀ t : Fin grid0.N, isLater (grid0.coords t) ↔ t.val % 8 ≠ 0)
theorem isLast_iff : ∀ t : Fin cfg0.N, isLast (grid0.coords t) ↔ t.val % 8 = 7 :=
  (by decide +kernel : ∀ t : Fin grid0.N, isLast (grid0.coords t) ↔ t.val % 8 = 7)

/-- The five input windows are never idle. -/
theorem live_in : ∀ t : Fin cfg0.N, cfg0.idle 0 (grid0.coords t) = false ∧ cfg0.idle 1 (grid0.coords t) = false
    ∧ cfg0.idle 2 (grid0.coords t) = false ∧ cfg0.idle 3 (grid0.coords t) = false ∧ cfg0.idle 4 (grid0.coords t) = false := by
  decide +kernel
/-- Off the last i-tile the body stores nothing into the output block, and the pipeline does not write it back. -/
theorem out_idle : ∀ t : Fin cfg0.N, ¬isLast (grid0.coords t) → cfg0.idle 5 (grid0.coords t) = true := by decide +kernel
theorem out_noFlush : ∀ t : Fin cfg0.N, ¬isLast (grid0.coords t) → (cfg0.win 5).flush t = false := by decide +kernel
/-- At the last i-tile it stores the whole block. -/
theorem out_live : ∀ t : Fin cfg0.N, isLast (grid0.coords t) → cfg0.idle 5 (grid0.coords t) = false := by decide +kernel

/-- The windows' current staging memrefs at a point, as the pipeline passes them to the body, and their wholeness. -/
abbrev mx (t : Fin cfg0.N) : Memref sig .tc .vmem S1024x256 .bf16 := win0_0.stage (cfg0.slots t 0)
abbrev hmx (t : Fin cfg0.N) : (mx t).IsWhole := hstage0_0 ((cfg0.slots t 0).cast nbuf0_0)
abbrev mxi (t : Fin cfg0.N) : Memref sig .tc .vmem S1x1024x32 .bf16 := win0_1.stage (cfg0.slots t 1)
abbrev hmxi (t : Fin cfg0.N) : (mxi t).IsWhole := hstage0_1 ((cfg0.slots t 1).cast nbuf0_1)
abbrev mw (t : Fin cfg0.N) : Memref sig .tc .vmem S256x8192 .bf16 := win0_2.stage (cfg0.slots t 2)
abbrev hmw (t : Fin cfg0.N) : (mw t).IsWhole := hstage0_2 ((cfg0.slots t 2).cast nbuf0_2)
abbrev ml (t : Fin cfg0.N) : Memref sig .tc .vmem S256x256 .bf16 := win0_3.stage (cfg0.slots t 3)
abbrev hml (t : Fin cfg0.N) : (ml t).IsWhole := hstage0_3 ((cfg0.slots t 3).cast nbuf0_3)
abbrev mc (t : Fin cfg0.N) : Memref sig .tc .vmem S1x256 .f32 := win0_4.stage (cfg0.slots t 4)
abbrev hmc (t : Fin cfg0.N) : (mc t).IsWhole := hstage0_4 ((cfg0.slots t 4).cast nbuf0_4)
abbrev mo (t : Fin cfg0.N) : Memref sig .tc .vmem S1024x256 .f32 := win0_5.stage (cfg0.slots t 5)
abbrev hmo (t : Fin cfg0.N) : (mo t).IsWhole := hstage0_5 ((cfg0.slots t 5).cast nbuf0_5)
/-- The scratch accumulator, a whole scoped buffer of the kernel's own, and the view its contents are stated through. -/
abbrev macc : Memref sig .tc .vmem S1024x256 .f32 := Memref.whole cc0_scratch0
abbrev vacc : View sig .tc .vmem S1024x256 .f32 := macc.view
/-- One staging buffer of the output window, through which its contents are stated. -/
abbrev vout : View sig .tc .vmem S1024x256 .f32 := (Memref.whole cc0_stg5_0 : Memref sig .tc .vmem S1024x256 .f32).view

/-- The class invariant: the accumulator owned at some contents, and the generator register at some state. -/
theorem classInv_eq (c : Dev nD) :
    (Pipeline.ΦA spec0 c : sProp 𝕄)
      = iprop(iprop((∃ d, owns (c : Thread nD τ) macc fullShare d)) ∗ (∃ r, prngReg c r)) := by
  unfold Pipeline.ΦA; rw [scopedRest0_eq]; simp only [macc, owns_whole]; try rfl

end Cert.KernelIdeal.Hand

end
-- ==== Proof.RunFirstI.lean ====
/-
  The body at a point whose i-tile index is 0: it loads the batch tile x, the weight tile and the packed x_i slice,
  takes the first branch only — loads the linear weights, and stores (x · Wlin^T) + (first quadratic partial sum) over
  the whole accumulator — and leaves the output block's staging buffer untouched. The accumulator may hold anything
  before. What the accumulator ends with is recorded as the list of its stores (one, covering it).
-/
import proofs.«100051_j31550829756606_2_alg».proof.Proof.CasesI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's run in the first case, on whole staging memrefs: the inputs at their contents and the output buffer at
    any contents `o` are handed back as found; the accumulator, at anything before, ends with the stores `LS` written. -/
noncomputable def runFirst (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : isFirst i) (h2 : ¬isLater i) (h3 : ¬isLast i) (x : Vec F S1024x256 .bf16) (xi : Vec F S1x1024x32 .bf16) (w : Vec F S256x8192 .bf16) (wl : Vec F S256x256 .bf16) (cst : Vec F S1x256 .f32) :
    { LS : List (View.Piece (Elt F) S1024x256 .f32) //
      ∀ (o : Vec F S1024x256 .f32) (E : Set ℕ) (K : PUnit → sProp 𝕄),
        iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ (∃ d, owns (c : Thread nD τ) arg8 fullShare d)
            ∗ (iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ (∃ f, arg8.view.loc (c : Thread nD τ) ↦[arg8.view.set]{fullShare} arg8.view.writes (Elt F) f LS)) -∗ K ⟨⟩))
          ⊢ wp frame (wpE (defs₀ (F := F)) Variants.none c none) E (cc0__cross_kernel i arg2 harg2 arg3 harg3 arg4 harg4 arg5 harg5 arg6 harg6 arg7 harg7 arg8 harg8) K } := by
  refine ⟨?_, fun o E K => ?run⟩
  case run =>
    simp only [cc0__cross_kernel_eq_skeleton]; unfold cc0__cross_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.RunLaterI.lean ====
/-
  The body at a point whose i-tile index is strictly between 0 and 7: it loads x, the weight tile and the x_i slice, takes
  the second branch only — reads the accumulator and stores (accumulator + this tile's quadratic partial sum) over the
  whole of it — and leaves the output block's staging buffer untouched.
-/
import proofs.«100051_j31550829756606_2_alg».proof.Proof.RunFirstI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's run in the middle case: the inputs and the output buffer (at any contents `o`) handed back as found; the
    accumulator, at `acc` before, ends with the stores `LS` written. -/
noncomputable def runLater (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : ¬isLast i) (x : Vec F S1024x256 .bf16) (xi : Vec F S1x1024x32 .bf16) (w : Vec F S256x8192 .bf16) (wl : Vec F S256x256 .bf16) (cst : Vec F S1x256 .f32) (acc : Vec F S1024x256 .f32) :
    { LS : List (View.Piece (Elt F) S1024x256 .f32) //
      ∀ (o : Vec F S1024x256 .f32) (E : Set ℕ) (K : PUnit → sProp 𝕄),
        iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ owns (c : Thread nD τ) arg8 fullShare acc
            ∗ (iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ owns (c : Thread nD τ) arg7 fullShare o ∗ (∃ f, arg8.view.loc (c : Thread nD τ) ↦[arg8.view.set]{fullShare} arg8.view.writes (Elt F) f LS)) -∗ K ⟨⟩))
          ⊢ wp frame (wpE (defs₀ (F := F)) Variants.none c none) E (cc0__cross_kernel i arg2 harg2 arg3 harg3 arg4 harg4 arg5 harg5 arg6 harg6 arg7 harg7 arg8 harg8) K } := by
  refine ⟨?_, fun o E K => ?run⟩
  case run =>
    simp only [cc0__cross_kernel_eq_skeleton]; unfold cc0__cross_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Hand

end
-- ==== Proof.RunLastI.lean ====
/-
  The body at a point whose i-tile index is 7: it loads x, the weight tile and the x_i slice, takes the second branch —
  stores (accumulator + the last quadratic partial sum) over the whole accumulator — and the third: reads the accumulator
  back, loads the constant row, and stores (accumulator + the row broadcast down the batch tile) over the whole output
  block, whatever its staging buffer held.
-/
import proofs.«100051_j31550829756606_2_alg».proof.Proof.RunLaterI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body's run in the last case: the inputs handed back as found; the output buffer, at anything before, ends with
    the stores `LO` written, and the accumulator, at `acc` before, with the stores `LS`. -/
noncomputable def runLast (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ (∃ d, owns (c : Thread nD τ) arg7 fullShare d) ∗ owns (c : Thread nD τ) arg8 fullShare acc
            ∗ (iprop(owns (c : Thread nD τ) arg2 fullShare x ∗ owns (c : Thread nD τ) arg3 fullShare xi ∗ owns (c : Thread nD τ) arg4 fullShare w ∗ owns (c : Thread nD τ) arg5 fullShare wl ∗ owns (c : Thread nD τ) arg6 fullShare cst ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc0__cross_kernel i arg2 harg2 arg3 harg3 arg4 harg4 arg5 harg5 arg6 harg6 arg7 harg7 arg8 harg8) K } := by
  refine ⟨?_, ?_, fun E K => ?run⟩
  case run =>
    simp only [cc0__cross_kernel_eq_skeleton]; unfold cc0__cross_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact HS

end Cert.KernelIdeal.Hand

end
-- ==== Proof.PiecesI.lean ====
/-
  What the stores of each case amount to: in every case the accumulator's stores are one store through the whole-buffer
  rectangle, so they cover it and leave exactly the stored vector — the linear term plus the first partial sum (first
  case), the previous accumulator plus the tile's partial sum (later cases); in the last case the output block's one
  store likewise leaves (new accumulator + constant row), the accumulator read back being what was just stored.
-/
import proofs.«100051_j31550829756606_2_alg».proof.Proof.RunLastI
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem zz : (![0, 0] : Fin 2 → Nat) = fun _ => 0 := funext fun a => by fin_cases a <;> rfl
theorem zz3 : (![0, 0, 0] : Fin 3 → Nat) = fun _ => 0 := funext fun a => by fin_cases a <;> rfl

theorem runFirst_cover (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : isFirst i) (h2 : ¬isLater i) (h3 : ¬isLast i) (x : Vec F S1024x256 .bf16) (xi : Vec F S1x1024x32 .bf16) (w : Vec F S256x8192 .bf16) (wl : Vec F S256x256 .bf16) (cst : Vec F S1x256 .f32) (y : S1024x256.Idx) :
    ∃ pc ∈ (runFirst c i arg2 harg2 arg3 harg3 arg4 harg4 arg5 harg5 arg6 harg6 arg7 harg7 arg8 harg8 h1 h2 h3 x xi w wl cst).1, y ∈ pc.1.set :=
  View.cover_of_tiledL _ S1024x256.size (by sl_kernel_rfl) y

theorem runFirst_canon (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : isFirst i) (h2 : ¬isLater i) (h3 : ¬isLast i) (x : Vec F S1024x256 .bf16) (xi : Vec F S1x1024x32 .bf16) (w : Vec F S256x8192 .bf16) (wl : Vec F S256x256 .bf16) (cst : Vec F S1x256 .f32) :
    View.canon (runFirst c i arg2 harg2 arg3 harg3 arg4 harg4 arg5 harg5 arg6 harg6 arg7 harg7 arg8 harg8 h1 h2 h3 x xi w wl cst).1 = k0_pay3 x w xi wl := by
  unfold runFirst
  dsimp only
  sl_unfold_words
  rw [View.canon_unit_zero zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

theorem runLater_cover (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : ¬isLast i) (x : Vec F S1024x256 .bf16) (xi : Vec F S1x1024x32 .bf16) (w : Vec F S256x8192 .bf16) (wl : Vec F S256x256 .bf16) (cst : Vec F S1x256 .f32) (acc : Vec F S1024x256 .f32) (y : S1024x256.Idx) :
    ∃ pc ∈ (runLater c i arg2 harg2 arg3 harg3 arg4 harg4 arg5 harg5 arg6 harg6 arg7 harg7 arg8 harg8 h1 h2 h3 x xi w wl cst acc).1, y ∈ pc.1.set :=
  View.cover_of_tiledL _ S1024x256.size (by sl_kernel_rfl) y

theorem runLater_canon (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : ¬isLast i) (x : Vec F S1024x256 .bf16) (xi : Vec F S1x1024x32 .bf16) (w : Vec F S256x8192 .bf16) (wl : Vec F S256x256 .bf16) (cst : Vec F S1x256 .f32) (acc : Vec F S1024x256 .f32) :
    View.canon (runLater c i arg2 harg2 arg3 harg3 arg4 harg4 arg5 harg5 arg6 harg6 arg7 harg7 arg8 harg8 h1 h2 h3 x xi w wl cst acc).1 = k0_pay4 x w xi acc := by
  unfold runLater
  dsimp only
  sl_unfold_words
  rw [View.canon_unit_zero zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

theorem runLast_cover_out (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) (y : S1024x256.Idx) :
    ∃ pc ∈ (runLast c i arg2 harg2 arg3 harg3 arg4 harg4 arg5 harg5 arg6 harg6 arg7 harg7 arg8 harg8 h1 h2 h3 x xi w wl cst acc).1, y ∈ pc.1.set :=
  View.cover_of_tiledL _ S1024x256.size (by sl_kernel_rfl) y
theorem runLast_cover_acc (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) (y : S1024x256.Idx) :
    ∃ pc ∈ (runLast c i arg2 harg2 arg3 harg3 arg4 harg4 arg5 harg5 arg6 harg6 arg7 harg7 arg8 harg8 h1 h2 h3 x xi w wl cst acc).2.1, y ∈ pc.1.set :=
  View.cover_of_tiledL _ S1024x256.size (by sl_kernel_rfl) y

theorem runLast_canon_acc (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) :
    View.canon (runLast c i arg2 harg2 arg3 harg3 arg4 harg4 arg5 harg5 arg6 harg6 arg7 harg7 arg8 harg8 h1 h2 h3 x xi w wl cst acc).2.1 = k0_pay4 x w xi acc := by
  unfold runLast
  dsimp only
  sl_unfold_words
  rw [View.canon_unit_zero zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

theorem runLast_canon_out (c : Dev nD) (i : grid0.Coords) (arg2 : Memref sig .tc .vmem S1024x256 .bf16) (harg2 : arg2.IsWhole) (arg3 : Memref sig .tc .vmem S1x1024x32 .bf16) (harg3 : arg3.IsWhole) (arg4 : Memref sig .tc .vmem S256x8192 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole)
    (h1 : ¬isFirst i) (h2 : isLater i) (h3 : isLast i) (x : Vec F S1024x256 .bf16) (xi : Vec F S1x1024x32 .bf16) (w : Vec F S256x8192 .bf16) (wl : Vec F S256x256 .bf16) (cst : Vec F S1x256 .f32) (acc : Vec F S1024x256 .f32) :
    View.canon (runLast c i arg2 harg2 arg3 harg3 arg4 harg4 arg5 harg5 arg6 harg6 arg7 harg7 arg8 harg8 h1 h2 h3 x xi w wl cst acc).1 = k0_pay5 (k0_pay4 x w xi acc) cst := by
  unfold runLast
  dsimp only
  sl_unfold_words
  rw [View.canon_unit_zero zz, View.readCov_unit_zero _ zz]
  simp only [View.readAt_eq_ld, harg2.read_unread, harg3.read_unread, harg4.read_unread, harg5.read_unread, harg6.read_unread, harg8.read_unread, View.ld_unit_zero (S := S1024x256) zz, View.ld_unit_zero (S := S256x8192) zz, View.ld_unit_zero (S := S256x256) zz, View.ld_unit_zero (S := S1x256) zz, View.ld_unit_zero (S := S1x1024x32) zz3]

end Cert.KernelIdeal.Hand

end
-- ==== Proof.BodyI.lean ====
/-
  The accumulator point by point, the pipeline's proof data, and the body obligation.
  After the point numbered n (batch tile n / 8, i-tile n mod 8) the scratch accumulator holds: at i-tile 0 the linear term
  of the batch tile plus the first quadratic partial sum; at a later i-tile what the point before left plus this tile's
  partial sum. The output block's staging buffer holds, after a point at i-tile 7, that accumulator plus the constant row;
  at the other points it is idle (nothing stored, nothing written back). The invariant carried between points is the
  accumulator at these contents; before the very first point, and after the last, it is forgotten.
-/
import proofs.«100051_j31550829756606_2_alg».proof.Proof.PiecesI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch accumulator after the point numbered `n`. -/
def accAt (c : Dev nD) : (n : ℕ) → n < cfg0.N → Vec F S1024x256 .f32
  | 0, hn => k0_pay3 (iblk m c 0 ⟨0, hn⟩) (iblk m c 2 ⟨0, hn⟩) (iblk m c 1 ⟨0, hn⟩) (iblk m c 3 ⟨0, hn⟩)
  | n + 1, hn =>
    if (n + 1) % 8 = 0 then
      k0_pay3 (iblk m c 0 ⟨n + 1, hn⟩) (iblk m c 2 ⟨n + 1, hn⟩) (iblk m c 1 ⟨n + 1, hn⟩) (iblk m c 3 ⟨n + 1, hn⟩)
    else
      k0_pay4 (iblk m c 0 ⟨n + 1, hn⟩) (iblk m c 2 ⟨n + 1, hn⟩) (iblk m c 1 ⟨n + 1, hn⟩) (accAt c n (Nat.lt_of_succ_lt hn))

/-- At i-tile 0 the accumulator is restarted. -/
theorem accAt_first (c : Dev nD) (t : Fin cfg0.N) (h : t.val % 8 = 0) :
    accAt m c t.val t.isLt = k0_pay3 (iblk m c 0 t) (iblk m c 2 t) (iblk m c 1 t) (iblk m c 3 t) := by
  obtain ⟨n, hn⟩ := t
  cases n with
  | zero => rfl
  | succ n => exact if_pos h

/-- At a later i-tile it is what the point before left plus the tile's partial sum. -/
theorem accAt_later (c : Dev nD) (t : Fin cfg0.N) (h : t.val % 8 ≠ 0) :
    accAt m c t.val t.isLt
      = k0_pay4 (iblk m c 0 t) (iblk m c 2 t) (iblk m c 1 t) (accAt m c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the class's (the accumulator at anything); afterwards the
    accumulator at what the point before left, and the generator register at some state. -/
def accInv (c : Dev nD) : (n : ℕ) → n ≤ cfg0.N → sProp 𝕄
  | 0, _ => Pipeline.ΦA spec0 c
  | n + 1, hn => iprop(iprop(owns (c : Thread nD τ) macc fullShare (accAt m c n hn)) ∗ (∃ r, prngReg c r))

theorem accInv_succ (c : Dev nD) (n : ℕ) (hn : n < cfg0.N) :
    accInv m c (n + 1) hn = iprop(iprop(owns (c : Thread nD τ) macc fullShare (accAt m c n hn)) ∗ (∃ r, prngReg c r)) := rfl

theorem accInv_pos (c : Dev nD) (n : ℕ) (h : n ≤ cfg0.N) (hz : n ≠ 0) :
    accInv m c n h = iprop(iprop(owns (c : Thread nD τ) macc fullShare (accAt m c (n - 1) (by omega))) ∗ (∃ r, prngReg c r)) := by
  cases n with
  | zero => exact absurd rfl hz
  | succ n => rfl

/-- At any position the invariant gives the accumulator at SOME contents. -/
theorem accInv_any (c : Dev nD) (n : ℕ) (h : n ≤ cfg0.N) :
    accInv m c n h ⊢ iprop(iprop((∃ d, owns (c : Thread nD τ) macc fullShare d)) ∗ (∃ r, prngReg c r)) := by
  cases n with
  | zero => rw [show accInv m c 0 h = Pipeline.ΦA spec0 c from rfl, classInv_eq]
  | succ n =>
    rw [accInv_succ]
    iintro ⟨HS, Hg⟩
    isplitl [HS]
    · iexists _; iexact HS
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay5 (accAt m c t.val t.isLt) (iblk m c 4 t)
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_out (c : Dev nD) (t : Fin cfg0.N) :
    (dats m 0 c).after 5 t = k0_pay5 (accAt m c t.val t.isLt) (iblk m c 4 t) := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d

theorem leaves_in0 (c : Dev nD) (t : Fin cfg0.N) :
    (dats m 0 c).leavesExact 0 t = owns (c : Thread nD τ) ((cfg0.win 0).stage (cfg0.slots t 0)) fullShare (iblk m c 0 t) := by
  unfold Dat.leavesExact; rw [(live_in t).1, after_in0]
theorem leaves_in1 (c : Dev nD) (t : Fin cfg0.N) :
    (dats m 0 c).leavesExact 1 t = owns (c : Thread nD τ) ((cfg0.win 1).stage (cfg0.slots t 1)) fullShare (iblk m c 1 t) := by
  unfold Dat.leavesExact; rw [(live_in t).2.1, after_in1]
theorem leaves_in2 (c : Dev nD) (t : Fin cfg0.N) :
    (dats m 0 c).leavesExact 2 t = owns (c : Thread nD τ) ((cfg0.win 2).stage (cfg0.slots t 2)) fullShare (iblk m c 2 t) := by
  unfold Dat.leavesExact; rw [(live_in t).2.2.1, after_in2]
theorem leaves_in3 (c : Dev nD) (t : Fin cfg0.N) :
    (dats m 0 c).leavesExact 3 t = owns (c : Thread nD τ) ((cfg0.win 3).stage (cfg0.slots t 3)) fullShare (iblk m c 3 t) := by
  unfold Dat.leavesExact; rw [(live_in t).2.2.2.1, after_in3]
theorem leaves_in4 (c : Dev nD) (t : Fin cfg0.N) :
    (dats m 0 c).leavesExact 4 t = owns (c : Thread nD τ) ((cfg0.win 4).stage (cfg0.slots t 4)) fullShare (iblk m c 4 t) := by
  unfold Dat.leavesExact; rw [(live_in t).2.2.2.2, after_in4]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (mx t) fullShare ((dats m 0 c).before 0 t d))
    ∗ (∃ d, owns (c : Thread nD τ) (mxi t) fullShare ((dats m 0 c).before 1 t d))
    ∗ (∃ d, owns (c : Thread nD τ) (mw t) fullShare ((dats m 0 c).before 2 t d))
    ∗ (∃ d, owns (c : Thread nD τ) (ml t) fullShare ((dats m 0 c).before 3 t d))
    ∗ (∃ d, owns (c : Thread nD τ) (mc t) fullShare ((dats m 0 c).before 4 t d))
    ∗ (∃ d, owns (c : Thread nD τ) (mo t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' staging memrefs hold their blocks; the point's i-tile index (its number mod 8)
    says which case it is in; the invariant hands the body the accumulator (at anything at i-tile 0, else at what the point
    before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).owesAt () t.succ = (dats m 0 c).owesAt () t.castSucc from rfl]
  rw [show (dats m 0 c).Φ t.succ = accInv m c (t.val + 1) t.isLt from rfl, accInv_succ]
  rw [leaves_in0, leaves_in1, leaves_in2, leaves_in3, leaves_in4, inv_castSucc]
  have hN : t.val < 16 := lt_of_lt_of_eq t.isLt (show cfg0.N = 16 from N_0)
  by_cases hF : t.val % 8 = 0
  · have h1 : isFirst (grid0.coords t) := (isFirst_iff t).mpr hF
    have h2 : ¬isLater (grid0.coords t) := fun h => (isLater_iff t).mp h hF
    have h3 : ¬isLast (grid0.coords t) := fun h => by have := (isLast_iff t).mp h; omega
    rw [Dat.leavesExact_idle (dats m 0 c) 5 t (out_idle t h3) (out_noFlush t h3), accAt_first m c t hF]
    iintro ⟨HΦ, Ho, ⟨%d0, H0⟩, ⟨%d1, H1⟩, ⟨%d2, H2⟩, ⟨%d3, H3⟩, ⟨%d4, H4⟩, ⟨%d5, H5⟩⟩
    ihave HΦ := (accInv_any m c _ _) $$ HΦ
    icases HΦ with ⟨HS, Hg⟩
    iapply ((runFirst c (grid0.coords t) _ _ _ _ _ _ _ _ _ _ _ _ _ _ h1 h2 h3 (iblk m c 0 t) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · unfold owns; iexists _; isplitr
        swap; · iexact HS
        ipureintro
        exact (View.read_writes_eq_canon _ _ _ (runFirst_cover c _ _ _ _ _ _ _ _ _ _ _ _ _ _ _ h1 h2 h3 _ _ _ _ _)).trans (runFirst_canon c _ _ _ _ _ _ _ _ _ _ _ _ _ _ _ h1 h2 h3 _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h1 : ¬isFirst (grid0.coords t) := fun h => hF ((isFirst_iff t).mp h)
    have h2 : isLater (grid0.coords t) := (isLater_iff t).mpr hF
    have hz : t.val ≠ 0 := fun h => hF (by rw [h])
    rw [accInv_pos m c _ _ hz, accAt_later m c t hF]
    by_cases hL : t.val % 8 = 7
    · have h3 : isLast (grid0.coords t) := (isLast_iff t).mpr hL
      rw [show (dats m 0 c).leavesExact 5 t = owns (c : Thread nD τ) (mo t) fullShare ((dats m 0 c).after 5 t) from by
        unfold Dat.leavesExact; rw [out_live t h3], after_out, accAt_later m c t hF]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ h1 h2 h3 (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eo, H5⟩, ⟨%es, HS⟩⟩
      isplitl [HS Hg]
      · isplitl [HS]
        · unfold owns; iexists _; isplitr
          swap; · iexact HS
          ipureintro
          exact (View.read_writes_eq_canon _ _ _ (runLast_cover_acc c _ _ _ _ _ _ _ _ _ _ _ _ _ _ _ h1 h2 h3 _ _ _ _ _ _)).trans (runLast_canon_acc c _ _ _ _ _ _ _ _ _ _ _ _ _ _ _ h1 h2 h3 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_eq_canon _ _ _ (runLast_cover_out c _ _ _ _ _ _ _ _ _ _ _ _ _ _ _ h1 h2 h3 _ _ _ _ _ _)).trans (runLast_canon_out c _ _ _ _ _ _ _ _ _ _ _ _ _ _ _ h1 h2 h3 _ _ _ _ _ _)
    · have h3 : ¬isLast (grid0.coords t) := fun h => hL ((isLast_iff t).mp h)
      rw [Dat.leavesExact_idle (dats m 0 c) 5 t (out_idle t h3) (out_noFlush t h3)]
      iintro ⟨⟨HS, Hg⟩, Ho, ⟨%d0, H0⟩, ⟨%d1, H1⟩, ⟨%d2, H2⟩, ⟨%d3, H3⟩, ⟨%d4, H4⟩, ⟨%d5, H5⟩⟩
      iapply ((runLater c (grid0.coords t) _ _ _ _ _ _ _ _ _ _ _ _ _ _ h1 h2 h3 (iblk m c 0 t) (iblk m c 1 t) (iblk m c 2 t) (iblk m c 3 t) (iblk m c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro
          exact (View.read_writes_eq_canon _ _ _ (runLater_cover c _ _ _ _ _ _ _ _ _ _ _ _ _ _ _ h1 h2 h3 _ _ _ _ _ _)).trans (runLater_canon c _ _ _ _ _ _ _ _ _ _ _ _ _ _ _ h1 h2 h3 _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = accInv m c (Fin.last cfg0.N).val (Nat.le_of_lt_succ (Fin.last cfg0.N).isLt) from rfl, classInv_eq]
  exact accInv_any m c _ _

/-! ## The run and the frame -/

set_option backward.isDefEq.respectTransparency.types false in
/-- Every weakly fair execution of @main terminates, with every array of the pipeline at what the library computes from
    the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.CrossSpec.lean ====
/-
  The cross-matrix layer  y[r, o] = sum over p, q in 0..256 of x1[r, p] * x1[r, q] * W[o, 257 p + q] + b[o],  x1 = (1, x[r, ·]),
  in the two arrangements the two programs compute it in, for ONE row r and ONE output o: the batch row as a function x of
  the feature number, the weight row as a function W of the flat position, the bias b; all over the extended reals.
  The reference's arrangement sums the flat outer product against the weight row. The kernel's splits off the leading one:
  a constant W[0] + b, a linear term with the two border strips of the weight square added, and the quadratic term over
  the inner 256 x 256 square accumulated in eight tiles of thirty-two rows.
-/
import Idealize.ShloMosaic.Lib.ValueIdx

noncomputable section

open scoped BigOperators

namespace Cert.CrossSpec

open Idealize.ShloMosaic Idealize.ShloMosaic.ValueIdx

/-- A row with a leading one: position 0 holds 1, position p + 1 holds `x p`. -/
def withOne (x : ℕ → EReal) (p : ℕ) : EReal := if p = 0 then 1 else x (p - 1)

/-- Row `R` of an [A, B] array as a function of the column NUMBER (zero past the last column). -/
def rowOf {A B : ℕ} (X : (⟨2, ![A, B]⟩ : Shape).Idx → EReal) (R : Fin A) (j : ℕ) : EReal :=
  if h : j < B then X (ix2 R ⟨j, h⟩) else 0

/-- The linear term: each feature against the sum of the two border strips of the weight square. -/
def linTerm (x W : ℕ → EReal) : EReal := ∑ j ∈ Finset.range 256, x j * (W (j + 1) + W ((j + 1) * 257))

/-- The quadratic partial sum of i-tile `s`: rows 32 s … 32 s + 31 of the inner square, each contracted with the whole
    feature row and then weighted by its own feature. -/
def quadTile (x W : ℕ → EReal) (s : ℕ) : EReal :=
  ∑ i ∈ Finset.range 32, (∑ j ∈ Finset.range 256, x j * W ((s * 32 + i + 1) * 257 + (j + 1))) * x (s * 32 + i)

/-- The kernel's arrangement. -/
def kernelForm (x W : ℕ → EReal) (b : EReal) : EReal :=
  (linTerm x W + ∑ s ∈ Finset.range 8, quadTile x W s) + (W 0 + b)

/-- The reference's arrangement. -/
def refForm (x W : ℕ → EReal) (b : EReal) : EReal :=
  (∑ k ∈ Finset.range 66049, (withOne x (k / 257) * withOne x (k % 257)) * W k) + b

end Cert.CrossSpec

end
-- ==== Proof.HostPre.lean ====
/-
  The arrays the five input windows of the pipeline stage, as the host lines before the region compute them from the three
  arguments x [2048, 256], W [256, 66049], b [256], read at an index. With W viewed as the cube W3[o, p, q] = W[o, 257 p + q]:
    the bf16 copy of x                                   : xh[R, j]            = x[R, j]
    the packed i-tiles of x                              : xt[k, R, i']        = x[R, 32 k + i']
    the quadratic weights, transposed and flattened      : wq[j, 256 i + o]    = W3[o, i + 1, j + 1]
    the linear weights, transposed                       : wl[j, o]            = W3[o, 0, j + 1] + W3[o, j + 1, 0]
    the constant row                                     : cr[0, o]            = W3[o, 0, 0] + b[o]
  (a change of float format is the identity on the extended reals).
-/
import proofs.«100051_j31550829756606_2_alg».proof.Proof.BodyI
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«100051_j31550829756606_2_alg».proof.Proof.CrossSpec

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.CrossSpec

variable (m : (ℓ : Loc nD τ sig) → Buf (Elt Ideal) ℓ)

/-- The three arguments on core `c`, as arrays of extended reals. -/
abbrev argX (c : Dev nD) : S2048x256.Idx → EReal := m ((c : Thread nD τ).loc main_arg0)
abbrev argW (c : Dev nD) : S256x66049.Idx → EReal := m ((c : Thread nD τ).loc main_arg1)
abbrev argB (c : Dev nD) : S256.Idx → EReal := m ((c : Thread nD τ).loc main_arg2)
/-- The weight cube. -/
abbrev W3 (c : Dev nD) : S256x257x257.Idx → EReal := shapeCast S256x257x257 (argW m c) shapeCasts_S256x66049_S256x257x257

theorem V_v16 (c : Dev nD) : @Eq (S2048x256.Idx → EReal) (V m c main_v16)
    (truncf (F := Ideal) .bf16 (argX m c) bitsLt_bf16_f32) := by
  show StableHlo.after hostOps0 (fun b => m (c, b)) (Proc.devRef .tc main_v16) = _
  after_results <;> rfl

theorem V_v18 (c : Dev nD) : @Eq (S8x2048x32.Idx → EReal) (V m c main_v18)
    (transpose S8x2048x32 [1, 0, 2] (shapeCast S2048x8x32 (truncf (F := Ideal) .bf16 (argX m c) bitsLt_bf16_f32) shapeCasts_S2048x256_S2048x8x32) transposes_S2048x8x32_S8x2048x32_1_0_2) := by
  show StableHlo.after hostOps0 (fun b => m (c, b)) (Proc.devRef .tc main_v18) = _
  after_results <;> rfl

theorem V_v11 (c : Dev nD) : @Eq (S256x65536.Idx → EReal) (V m c main_v11)
    (shapeCast S256x65536 (transpose S256x256x256 [2, 1, 0] (truncf (F := Ideal) .bf16 (extractStridedSlice S256x256x256 ![0, 1, 1] (W3 m c) slices_S256x257x257_S256x256x256_0_1_1) bitsLt_bf16_f32) transposes_S256x256x256_S256x256x256_2_1_0) shapeCasts_S256x256x256_S256x65536) := by
  show StableHlo.after hostOps0 (fun b => m (c, b)) (Proc.devRef .tc main_v11) = _
  after_results <;> rfl

theorem V_v13 (c : Dev nD) : @Eq (S256x256.Idx → EReal) (V m c main_v13)
    (truncf (F := Ideal) .bf16 (transpose S256x256 [1, 0] (addf (F := Ideal) (φ := .f32) (shapeCast S256x256 (extractStridedSlice S256x1x256 ![0, 0, 1] (W3 m c) slices_S256x257x257_S256x1x256_0_0_1) shapeCasts_S256x1x256_S256x256) (shapeCast S256x256 (extractStridedSlice S256x256x1 ![0, 1, 0] (W3 m c) slices_S256x257x257_S256x256x1_0_1_0) shapeCasts_S256x256x1_S256x256)) transposes_S256x256_S256x256_1_0) bitsLt_bf16_f32) := by
  show StableHlo.after hostOps0 (fun b => m (c, b)) (Proc.devRef .tc main_v13) = _
  after_results <;> rfl

theorem V_v15 (c : Dev nD) : @Eq (S1x256.Idx → EReal) (V m c main_v15)
    (shapeCast S1x256 (addf (F := Ideal) (φ := .f32) (shapeCast S256 (extractStridedSlice S256x1x1 ![0, 0, 0] (W3 m c) slices_S256x257x257_S256x1x1_0_0_0) shapeCasts_S256x1x1_S256) (argB m c)) shapeCasts_S256_S1x256) := by
  show StableHlo.after hostOps0 (fun b => m (c, b)) (Proc.devRef .tc main_v15) = _
  after_results <;> rfl

/-- The weight cube at (o, p, q) is the weight row o at flat position 257 p + q. -/
theorem W3_at (c : Dev nD) (o : Fin 256) (p q : Fin 257) :
    W3 m c (ix3 o p q) = rowOf (argW m c) o (p.val * 257 + q.val) := by
  have hb : p.val * 257 + q.val < 66049 := by have := p.isLt; have := q.isLt; omega
  rw [rowOf, dif_pos hb]
  exact shapeCast_apply _ _ (ix3 o p q) (ix2 o ⟨p.val * 257 + q.val, hb⟩)
    (by rewrite [Shape.rowMajor_val_two, Shape.rowMajor_val_three]; show o.val * 66049 + (p.val * 257 + q.val) = (o.val * 257 + p.val) * 257 + q.val; omega)

/-- The bf16 copy of x is x. -/
theorem xh_at (c : Dev nD) (R : Fin 2048) (j : Fin 256) :
    (V m c main_v16 : S2048x256.Idx → EReal) (ix2 R j) = rowOf (argX m c) R j.val := by
  rw [V_v16, rowOf, dif_pos j.isLt]; rfl

/-- The packed i-tiles: tile k, row R, position i' is x[R, 32 k + i']. -/
theorem xt_at (c : Dev nD) (k : Fin 8) (R : Fin 2048) (i' : Fin 32) :
    (V m c main_v18 : S8x2048x32.Idx → EReal) (ix3 k R i') = rowOf (argX m c) R (k.val * 32 + i'.val) := by
  have hb : k.val * 32 + i'.val < 256 := by have := k.isLt; have := i'.isLt; omega
  rw [V_v18, rowOf, dif_pos hb]
  refine (transpose_apply [1, 0, 2] _ _ (ix3 k R i') (ix3 R k i') (fun b => match b with | ⟨0, _⟩ => rfl | ⟨1, _⟩ => rfl | ⟨2, _⟩ => rfl)).trans ?_
  exact shapeCast_apply _ _ (ix3 R k i') (ix2 R ⟨k.val * 32 + i'.val, hb⟩)
    (by rewrite [Shape.rowMajor_val_two, Shape.rowMajor_val_three]; show R.val * 256 + (k.val * 32 + i'.val) = (R.val * 8 + k.val) * 32 + i'.val; omega)

/-- The quadratic weights: row j, column 256 i + o is W3[o, i + 1, j + 1]. -/
theorem wq_at (c : Dev nD) (j i o : Fin 256) (col : Fin 65536) (hcol : col.val = i.val * 256 + o.val) :
    (V m c main_v11 : S256x65536.Idx → EReal) (ix2 j col) = rowOf (argW m c) o ((i.val + 1) * 257 + (j.val + 1)) := by
  rw [V_v11]
  refine (shapeCast_apply _ shapeCasts_S256x256x256_S256x65536 (ix2 j col) (ix3 j i o)
    (by rewrite [Shape.rowMajor_val_three, Shape.rowMajor_val_two]; show (j.val * 256 + i.val) * 256 + o.val = j.val * 65536 + col.val; omega)).trans ?_
  refine (transpose_apply [2, 1, 0] _ transposes_S256x256x256_S256x256x256_2_1_0 (ix3 j i o) (ix3 o i j) (fun b => match b with | ⟨0, _⟩ => rfl | ⟨1, _⟩ => rfl | ⟨2, _⟩ => rfl)).trans ?_
  show extractStridedSlice S256x256x256 ![0, 1, 1] (W3 m c) slices_S256x257x257_S256x256x256_0_1_1 (ix3 o i j) = _
  have hi : i.val + 1 < 257 := by have := i.isLt; omega
  have hj : j.val + 1 < 257 := by have := j.isLt; omega
  refine (extractStridedSlice_apply ![0, 1, 1] (W3 m c) slices_S256x257x257_S256x256x256_0_1_1 (ix3 o i j) (ix3 o (⟨i.val + 1, hi⟩ : Fin 257) (⟨j.val + 1, hj⟩ : Fin 257))
    (fun a => match a with | ⟨0, _⟩ => by show o.val = 0 + o.val; omega | ⟨1, _⟩ => by show i.val + 1 = 1 + i.val; omega | ⟨2, _⟩ => by show j.val + 1 = 1 + j.val; omega)).trans ?_
  exact W3_at m c o _ _

/-- The linear weights: row j, column o is W3[o, 0, j + 1] + W3[o, j + 1, 0]. -/
theorem wl_at (c : Dev nD) (j o : Fin 256) :
    (V m c main_v13 : S256x256.Idx → EReal) (ix2 j o) = rowOf (argW m c) o (j.val + 1) + rowOf (argW m c) o ((j.val + 1) * 257) := by
  have hj : j.val + 1 < 257 := by have := j.isLt; omega
  rw [V_v13]
  show transpose S256x256 [1, 0] (addf (F := Ideal) (φ := .f32) (shapeCast S256x256 (extractStridedSlice S256x1x256 ![0, 0, 1] (W3 m c) slices_S256x257x257_S256x1x256_0_0_1) shapeCasts_S256x1x256_S256x256) (shapeCast S256x256 (extractStridedSlice S256x256x1 ![0, 1, 0] (W3 m c) slices_S256x257x257_S256x256x1_0_1_0) shapeCasts_S256x256x1_S256x256)) transposes_S256x256_S256x256_1_0 (ix2 j o) = _
  refine (transpose_apply [1, 0] _ transposes_S256x256_S256x256_1_0 (ix2 j o) (ix2 o j) (fun b => match b with | ⟨0, _⟩ => rfl | ⟨1, _⟩ => rfl)).trans ?_
  show (shapeCast S256x256 (extractStridedSlice S256x1x256 ![0, 0, 1] (W3 m c) slices_S256x257x257_S256x1x256_0_0_1) shapeCasts_S256x1x256_S256x256 (ix2 o j) : EReal) + shapeCast S256x256 (extractStridedSlice S256x256x1 ![0, 1, 0] (W3 m c) slices_S256x257x257_S256x256x1_0_1_0) shapeCasts_S256x256x1_S256x256 (ix2 o j) = _
  congr 1
  · refine (shapeCast_apply _ shapeCasts_S256x1x256_S256x256 (ix2 o j) (ix3 o (0 : Fin 1) j)
      (by rewrite [Shape.rowMajor_val_three, Shape.rowMajor_val_two]; show (o.val * 1 + 0) * 256 + j.val = o.val * 256 + j.val; omega)).trans ?_
    refine (extractStridedSlice_apply ![0, 0, 1] (W3 m c) slices_S256x257x257_S256x1x256_0_0_1 (ix3 o (0 : Fin 1) j) (ix3 o (0 : Fin 257) (⟨j.val + 1, hj⟩ : Fin 257))
      (fun a => match a with | ⟨0, _⟩ => by show o.val = 0 + o.val; omega | ⟨1, _⟩ => rfl | ⟨2, _⟩ => by show j.val + 1 = 1 + j.val; omega)).trans ?_
    refine (W3_at m c o _ _).trans ?_
    show rowOf (argW m c) o (0 * 257 + (j.val + 1)) = _
    rw [Nat.zero_mul, Nat.zero_add]
  · refine (shapeCast_apply _ shapeCasts_S256x256x1_S256x256 (ix2 o j) (ix3 o j (0 : Fin 1))
      (by rewrite [Shape.rowMajor_val_three, Shape.rowMajor_val_two]; show (o.val * 256 + j.val) * 1 + 0 = o.val * 256 + j.val; omega)).trans ?_
    refine (extractStridedSlice_apply ![0, 1, 0] (W3 m c) slices_S256x257x257_S256x256x1_0_1_0 (ix3 o j (0 : Fin 1)) (ix3 o (⟨j.val + 1, hj⟩ : Fin 257) (0 : Fin 257))
      (fun a => match a with | ⟨0, _⟩ => by show o.val = 0 + o.val; omega | ⟨1, _⟩ => by show j.val + 1 = 1 + j.val; omega | ⟨2, _⟩ => rfl)).trans ?_
    refine (W3_at m c o _ _).trans ?_
    show rowOf (argW m c) o ((j.val + 1) * 257 + 0) = _
    rw [Nat.add_zero]

/-- The constant row: column o is W3[o, 0, 0] + b[o]. -/
theorem cr_at (c : Dev nD) (o : Fin 256) :
    (V m c main_v15 : S1x256.Idx → EReal) (ix2 (0 : Fin 1) o) = rowOf (argW m c) o 0 + argB m c (ix1 o) := by
  rw [V_v15]
  refine (shapeCast_apply _ shapeCasts_S256_S1x256 (ix2 (0 : Fin 1) o) (ix1 o)
    (by rewrite [Shape.rowMajor_val_one, Shape.rowMajor_val_two]; show o.val = 0 * 256 + o.val; omega)).trans ?_
  show (shapeCast S256 (extractStridedSlice S256x1x1 ![0, 0, 0] (W3 m c) slices_S256x257x257_S256x1x1_0_0_0) shapeCasts_S256x1x1_S256 (ix1 o) : EReal) + argB m c (ix1 o) = _
  congr 1
  refine (shapeCast_apply _ shapeCasts_S256x1x1_S256 (ix1 o) (ix3 o (0 : Fin 1) (0 : Fin 1))
    (by rewrite [Shape.rowMajor_val_three, Shape.rowMajor_val_one]; show (o.val * 1 + 0) * 1 + 0 = o.val; omega)).trans ?_
  refine (extractStridedSlice_apply ![0, 0, 0] (W3 m c) slices_S256x257x257_S256x1x1_0_0_0 (ix3 o (0 : Fin 1) (0 : Fin 1)) (ix3 o (0 : Fin 257) (0 : Fin 257))
    (fun a => match a with | ⟨0, _⟩ => by show o.val = 0 + o.val; omega | ⟨1, _⟩ => rfl | ⟨2, _⟩ => rfl)).trans ?_
  exact W3_at m c o _ _

end Cert.KernelIdeal.HandValue

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.PayAt.lean ====
/-
  The body's four stored vectors read at one element (r, o) of the [1024, 256] batch tile, on the extended reals, as
  functions of the loaded blocks: x0 the batch tile [1024, 256], w the quadratic-weight tile [256, 32 * 256] (column
  256 i' + o holds the weights of tile row i' and output o), xi the tile's own 32 features of every row [1, 1024, 32],
  wl the linear weights [256, 256], cst the constant row [1, 256]:
    the tile's quadratic partial sum   q(r, o)  = sum over i' < 32 of (sum over j of x0[r, j] * w[j, 256 i' + o]) * xi[0, r, i']
    the restarted accumulator                   = (sum over j of x0[r, j] * wl[j, o]) + q(r, o)
    the continued accumulator                   = acc[r, o] + q(r, o)
    the output block                            = acc[r, o] + cst[0, o].
-/
import proofs.«100051_j31550829756606_2_alg».proof.Proof.Gen.KernelIdeal.Skeleton
import proofs.«100051_j31550829756606_2_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.ValueIdx
open Cert.KernelIdeal Cert.KernelIdeal.Gen

/-- The reduced index (r, o) with the tile row i' put back is (r, i', o). -/
theorem lift_tile (h : S1024x32x256.Reduces [1] S1024x256) (r : Fin 1024) (o : Fin 256) (k : Fin (S1024x32x256.size 1)) :
    h.lift (ix2 r o) k = ix3 r (⟨k.val, k.isLt⟩ : Fin 32) o := by
  funext c; apply Fin.ext
  fin_cases c <;> rfl

/-- A lane-tile sum over the middle axis from the zero word, at (r, o): the sum over the 32 tile rows. -/
theorem sum_tile_rows (src : FVec Ideal S1024x32x256 .f32) (h : S1024x32x256.Reduces [1] S1024x256) (hφ : FKind.Formats .f32)
    (hacc : (0x00000000#32 : BitVec 32) = 0x00000000#32) (r : Fin 1024) (o : Fin 256) :
    multiReduction (F := Ideal) .add [1] S1024x256 src 0x00000000#32 h hφ hacc (ix2 r o) = ∑ i' : Fin 32, src (ix3 r i' o) := by
  refine (Ideal.multiReduction_add_single src 0x00000000#32 h hφ hacc (ix2 r o)).trans ?_
  exact Finset.sum_congr rfl fun k _ => congrArg src (lift_tile h r o k)

/-- The tile's quadratic partial sum at (r, o). -/
theorem quad_at (x0 : FVec Ideal S1024x256 .bf16) (w : FVec Ideal S256x8192 .bf16) (xi : FVec Ideal S1x1024x32 .bf16)
    (r : Fin 1024) (o : Fin 256) :
    k0_pay2 (F := Ideal) x0 w xi (ix2 r o)
      = ∑ i' : Fin 32, (∑ j : Fin 256, x0 (ix2 r j) * w (ix2 j (⟨i'.val * 256 + o.val, by have := i'.isLt; have := o.isLt; omega⟩ : Fin 8192)))
          * xi (ix3 (0 : Fin 1) r i') := by
  unfold k0_pay2 k0_pay1
  refine (sum_tile_rows _ reduces_S1024x32x256_S1024x256 (.inl rfl) rfl r o).trans ?_
  refine Finset.sum_congr rfl fun i' _ => ?_
  have hcol : i'.val * 256 + o.val < 8192 := by have := i'.isLt; have := o.isLt; omega
  show (shapeCast S1024x32x256 _ shapeCasts_S1024x8192_S1024x32x256 (ix3 r i' o) : EReal)
      * broadcastTo S1024x32x256 _ broadcasts_S1024x32x1_S1024x32x256 (ix3 r i' o) = _
  congr 1
  · refine (shapeCast_apply _ shapeCasts_S1024x8192_S1024x32x256 (ix3 r i' o) (ix2 r (⟨i'.val * 256 + o.val, hcol⟩ : Fin 8192))
      (by rewrite [Shape.rowMajor_val_two, Shape.rowMajor_val_three]; show r.val * 8192 + (i'.val * 256 + o.val) = (r.val * 32 + i'.val) * 256 + o.val; omega)).trans ?_
    rw [shapeCast_self, shapeCast_self]
    exact Cert.LibMatmulPlain.matmul_zero_apply none x0 w r ⟨i'.val * 256 + o.val, hcol⟩
  · refine (broadcastTo_apply _ broadcasts_S1024x32x1_S1024x32x256 (ix3 r i' o) (ix3 r i' (0 : Fin 1))
      (fun a => match a with
        | ⟨0, _⟩ => by show r.val = if (1024 : Nat) = 1 then 0 else r.val; rw [if_neg (by decide)]
        | ⟨1, _⟩ => by show i'.val = if (32 : Nat) = 1 then 0 else i'.val; rw [if_neg (by decide)]
        | ⟨2, _⟩ => by show 0 = if (1 : Nat) = 1 then 0 else o.val; rw [if_pos rfl])).trans ?_
    refine (shapeCast_apply _ shapeCasts_S1024x32_S1024x32x1 (ix3 r i' (0 : Fin 1)) (ix2 r i')
      (by rewrite [Shape.rowMajor_val_two, Shape.rowMajor_val_three]; show r.val * 32 + i'.val = (r.val * 32 + i'.val) * 1 + 0; omega)).trans ?_
    show shapeCast S1024x32 xi shapeCasts_S1x1024x32_S1024x32 (ix2 r i') = _
    exact shapeCast_apply xi shapeCasts_S1x1024x32_S1024x32 (ix2 r i') (ix3 (0 : Fin 1) r i')
      (by rewrite [Shape.rowMajor_val_three, Shape.rowMajor_val_two]; show (0 * 1024 + r.val) * 32 + i'.val = r.val * 32 + i'.val; omega)

/-- The restarted accumulator at (r, o): the linear term plus the first partial sum. -/
theorem first_at (x0 : FVec Ideal S1024x256 .bf16) (w : FVec Ideal S256x8192 .bf16) (xi : FVec Ideal S1x1024x32 .bf16)
    (wl : FVec Ideal S256x256 .bf16) (r : Fin 1024) (o : Fin 256) :
    k0_pay3 (F := Ideal) x0 w xi wl (ix2 r o)
      = (∑ j : Fin 256, x0 (ix2 r j) * wl (ix2 j o)) + k0_pay2 (F := Ideal) x0 w xi (ix2 r o) := by
  unfold k0_pay3 k0_pay1
  rw [shapeCast_self]
  show (matmul dot_S1024x256_S256x256_S1024x256_1_0_0_1_n_n none (shapeCast S1024x256 x0 shapeCasts_S1024x256_S1024x256) (shapeCast S256x256 wl shapeCasts_S256x256_S256x256) (constant (F := Ideal) S1024x256 .f32 0x00000000#32) (ix2 r o) : EReal) + _ = _
  rw [shapeCast_self, shapeCast_self]
  exact congrArg (· + k0_pay2 (F := Ideal) x0 w xi (ix2 r o)) (Cert.LibMatmulPlain.matmul_zero_apply none x0 wl r o)

/-- The continued accumulator at (r, o). -/
theorem later_at (x0 : FVec Ideal S1024x256 .bf16) (w : FVec Ideal S256x8192 .bf16) (xi : FVec Ideal S1x1024x32 .bf16)
    (acc : FVec Ideal S1024x256 .f32) (r : Fin 1024) (o : Fin 256) :
    k0_pay4 (F := Ideal) x0 w xi acc (ix2 r o) = acc (ix2 r o) + k0_pay2 (F := Ideal) x0 w xi (ix2 r o) := by
  unfold k0_pay4
  rw [shapeCast_self]
  rfl

/-- The output block at (r, o): the accumulator plus the constant row. -/
theorem out_at (acc : FVec Ideal S1024x256 .f32) (cst : FVec Ideal S1x256 .f32) (r : Fin 1024) (o : Fin 256) :
    k0_pay5 (F := Ideal) acc cst (ix2 r o) = acc (ix2 r o) + cst (ix2 (0 : Fin 1) o) := by
  unfold k0_pay5
  rw [shapeCast_self]
  show acc (ix2 r o) + broadcastTo S1024x256 cst broadcasts_S1x256_S1024x256 (ix2 r o) = _
  exact congrArg (acc (ix2 r o) + ·) (broadcastTo_apply cst broadcasts_S1x256_S1024x256 (ix2 r o) (ix2 (0 : Fin 1) o)
    (fun a => match a with
      | ⟨0, _⟩ => by show 0 = if (1 : Nat) = 1 then 0 else r.val; rw [if_pos rfl]
      | ⟨1, _⟩ => by show o.val = if (256 : Nat) = 1 then 0 else o.val; rw [if_neg (by decide)]))

end Cert.KernelIdeal.HandValue

end
-- ==== Proof.Blocks.lean ====
/-
  Each input window's block at a grid point read at an index: point number t is batch tile t / 8 and i-tile t mod 8, and
    the batch tile's block       : rows 1024 (t / 8) … of the bf16 copy of x
    the packed x_i block         : tile t mod 8, the same rows
    the quadratic-weight block   : columns 8192 (t mod 8) … of the flattened weights
    the linear weights, the constant row : the whole arrays.
  With the host lines' reading of those arrays this gives every loaded element as an element of x, W or b.
-/
import proofs.«100051_j31550829756606_2_alg».proof.Proof.HostPre
import proofs.«100051_j31550829756606_2_alg».proof.Proof.PayAt

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.CrossSpec

variable (m : (ℓ : Loc nD τ sig) → Buf (Elt Ideal) ℓ)

/-- The printed index maps over the grid: batch tile t / 8, i-tile t mod 8. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = t.val / 8 ∧ win0_1.index t (2 : Fin 3) = 0
    ∧ win0_2.index t (0 : Fin 2) = 0 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-- The batch tile's block at (r, j) is row 1024 (t / 8) + r of x. -/
theorem x_blk_at (c : Dev nD) (t : Fin cfg0.N) (r : Fin 1024) (j : Fin 256) (R : Fin 2048) (hR : R.val = t.val / 8 * 1024 + r.val) :
    (iblk m c 0 t : S1024x256.Idx → EReal) (ix2 r j) = rowOf (argX m c) R j.val := by
  obtain ⟨e0, e1, -⟩ := idx_facts t
  refine Eq.trans ?_ (xh_at m c R j)
  unfold iblk
  rw [View.read_apply]
  show (V m c main_v16 : S2048x256.Idx → EReal) _ = (V m c main_v16 : S2048x256.Idx → EReal) (ix2 R j)
  refine congrArg (V m c main_v16 : S2048x256.Idx → EReal) (funext fun a => Fin.ext ?_)
  match a with
  | ⟨0, _⟩ => show win0_0.index t (0 : Fin 2) * 1024 + 1 * r.val = R.val; rw [e0, hR]; omega
  | ⟨1, _⟩ => show win0_0.index t (1 : Fin 2) * 256 + 1 * j.val = j.val; rw [e1]; omega

/-- The packed x_i block at (0, r, i') is feature 32 (t mod 8) + i' of that row. -/
theorem xi_blk_at (c : Dev nD) (t : Fin cfg0.N) (r : Fin 1024) (i' : Fin 32) (R : Fin 2048) (hR : R.val = t.val / 8 * 1024 + r.val) :
    (iblk m c 1 t : S1x1024x32.Idx → EReal) (ix3 (0 : Fin 1) r i') = rowOf (argX m c) R (t.val % 8 * 32 + i'.val) := by
  obtain ⟨-, -, e0, e1, e2, -⟩ := idx_facts t
  have hk : t.val % 8 < 8 := Nat.mod_lt _ (by decide)
  refine Eq.trans ?_ (xt_at m c ⟨t.val % 8, hk⟩ R i')
  unfold iblk
  rw [View.read_apply]
  show (V m c main_v18 : S8x2048x32.Idx → EReal) _ = (V m c main_v18 : S8x2048x32.Idx → EReal) (ix3 (⟨t.val % 8, hk⟩ : Fin 8) R i')
  refine congrArg (V m c main_v18 : S8x2048x32.Idx → EReal) (funext fun a => Fin.ext ?_)
  match a with
  | ⟨0, _⟩ => show win0_1.index t (0 : Fin 3) * 1 + 1 * 0 = t.val % 8; rw [e0]; omega
  | ⟨1, _⟩ => show win0_1.index t (1 : Fin 3) * 1024 + 1 * r.val = R.val; rw [e1, hR]; omega
  | ⟨2, _⟩ => show win0_1.index t (2 : Fin 3) * 32 + 1 * i'.val = i'.val; rw [e2]; omega

/-- The quadratic-weight block at (j, 256 i' + o) is W3[o, 32 (t mod 8) + i' + 1, j + 1]. -/
theorem w_blk_at (c : Dev nD) (t : Fin cfg0.N) (j : Fin 256) (i' : Fin 32) (o : Fin 256) (col : Fin 8192) (hcol : col.val = i'.val * 256 + o.val) :
    (iblk m c 2 t : S256x8192.Idx → EReal) (ix2 j col)
      = rowOf (argW m c) o ((t.val % 8 * 32 + i'.val + 1) * 257 + (j.val + 1)) := by
  obtain ⟨-, -, -, -, -, e0, e1, -⟩ := idx_facts t
  have hk : t.val % 8 < 8 := Nat.mod_lt _ (by decide)
  have hi : t.val % 8 * 32 + i'.val < 256 := by have := i'.isLt; omega
  have hc : t.val % 8 * 8192 + col.val < 65536 := by have := col.isLt; omega
  refine Eq.trans ?_ (wq_at m c j ⟨t.val % 8 * 32 + i'.val, hi⟩ o ⟨t.val % 8 * 8192 + col.val, hc⟩ (by show t.val % 8 * 8192 + col.val = (t.val % 8 * 32 + i'.val) * 256 + o.val; omega))
  unfold iblk
  rw [View.read_apply]
  show (V m c main_v11 : S256x65536.Idx → EReal) _ = (V m c main_v11 : S256x65536.Idx → EReal) (ix2 j (⟨t.val % 8 * 8192 + col.val, hc⟩ : Fin 65536))
  refine congrArg (V m c main_v11 : S256x65536.Idx → EReal) (funext fun a => Fin.ext ?_)
  match a with
  | ⟨0, _⟩ => show win0_2.index t (0 : Fin 2) * 256 + 1 * j.val = j.val; rw [e0]; omega
  | ⟨1, _⟩ => show win0_2.index t (1 : Fin 2) * 8192 + 1 * col.val = t.val % 8 * 8192 + col.val; rw [e1]; omega

/-- The linear-weight block is the whole array. -/
theorem wl_blk_at (c : Dev nD) (t : Fin cfg0.N) (j o : Fin 256) :
    (iblk m c 3 t : S256x256.Idx → EReal) (ix2 j o) = rowOf (argW m c) o (j.val + 1) + rowOf (argW m c) o ((j.val + 1) * 257) := by
  obtain ⟨-, -, -, -, -, -, -, e0, e1, -⟩ := idx_facts t
  refine Eq.trans ?_ (wl_at m c j o)
  unfold iblk
  rw [View.read_apply]
  show (V m c main_v13 : S256x256.Idx → EReal) _ = (V m c main_v13 : S256x256.Idx → EReal) (ix2 j o)
  refine congrArg (V m c main_v13 : S256x256.Idx → EReal) (funext fun a => Fin.ext ?_)
  match a with
  | ⟨0, _⟩ => show win0_3.index t (0 : Fin 2) * 256 + 1 * j.val = j.val; rw [e0]; omega
  | ⟨1, _⟩ => show win0_3.index t (1 : Fin 2) * 256 + 1 * o.val = o.val; rw [e1]; omega

/-- The constant-row block is the whole row. -/
theorem cst_blk_at (c : Dev nD) (t : Fin cfg0.N) (o : Fin 256) :
    (iblk m c 4 t : S1x256.Idx → EReal) (ix2 (0 : Fin 1) o) = rowOf (argW m c) o 0 + argB m c (ix1 o) := by
  obtain ⟨-, -, -, -, -, -, -, -, -, e0, e1, -⟩ := idx_facts t
  refine Eq.trans ?_ (cr_at m c o)
  unfold iblk
  rw [View.read_apply]
  show (V m c main_v15 : S1x256.Idx → EReal) _ = (V m c main_v15 : S1x256.Idx → EReal) (ix2 (0 : Fin 1) o)
  refine congrArg (V m c main_v15 : S1x256.Idx → EReal) (funext fun a => Fin.ext ?_)
  match a with
  | ⟨0, _⟩ => show win0_4.index t (0 : Fin 2) * 1 + 1 * 0 = 0; rw [e0]
  | ⟨1, _⟩ => show win0_4.index t (1 : Fin 2) * 256 + 1 * o.val = o.val; rw [e1]; omega

end Cert.KernelIdeal.HandValue

end
-- ==== Proof.AccValue.lean ====
/-
  The kernel's result. For row R = 1024 (t / 8) + r of the batch and output o, with x = row R of x and W = row o of the
  weights as functions of the position number:
    the tile's partial sum at point t is the quadratic tile t mod 8;  the restarted accumulator is the linear term plus
    tile 0;  so after the point with i-tile s the accumulator holds  linear + (tile 0 + … + tile s)  (induction on the
    point: a continued accumulator adds its tile to what the point before left);  the block written back at i-tile 7 is
    that with s = 7 plus the constant W[0] + b[o]: the kernel's arrangement of the layer.
  The two write-backs (points 7 and 15) cover the [2048, 256] result.
-/
import proofs.«100051_j31550829756606_2_alg».proof.Proof.Blocks

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.CrossSpec

variable (m : (ℓ : Loc nD τ sig) → Buf (Elt Ideal) ℓ) (ρ : Dev nD → PrngReg)

/-- The accumulator's value after i-tile `s`: the linear term and the quadratic tiles 0 … s. -/
def accForm (x W : ℕ → EReal) (s : ℕ) : EReal := linTerm x W + ∑ s' ∈ Finset.range (s + 1), quadTile x W s'

theorem accForm_zero (x W : ℕ → EReal) : linTerm x W + quadTile x W 0 = accForm x W 0 := by
  unfold accForm; rw [Finset.sum_range_one]

theorem accForm_succ (x W : ℕ → EReal) (s : ℕ) : accForm x W s + quadTile x W (s + 1) = accForm x W (s + 1) := by
  unfold accForm; rw [Finset.sum_range_succ _ (s + 1), add_assoc]

/-- The partial sum computed at point `t`, at (r, o): the quadratic tile `t mod 8` of row R against weight row o. -/
theorem quad_pt (c : Dev nD) (t : Fin cfg0.N) (r : Fin 1024) (o : Fin 256) (R : Fin 2048) (hR : R.val = t.val / 8 * 1024 + r.val) :
    k0_pay2 (F := Ideal) (iblk m c 0 t) (iblk m c 2 t) (iblk m c 1 t) (ix2 r o)
      = quadTile (rowOf (argX m c) R) (rowOf (argW m c) o) (t.val % 8) := by
  refine (quad_at (iblk m c 0 t) (iblk m c 2 t) (iblk m c 1 t) r o).trans ?_
  unfold quadTile
  refine Eq.trans ?_ (Fin.sum_univ_eq_sum_range (fun i => (∑ j ∈ Finset.range 256, rowOf (argX m c) R j * rowOf (argW m c) o ((t.val % 8 * 32 + i + 1) * 257 + (j + 1))) * rowOf (argX m c) R (t.val % 8 * 32 + i)) 32)
  refine Finset.sum_congr rfl fun i' _ => ?_
  refine congrArg₂ (· * ·) ?_ (xi_blk_at m c t r i' R hR)
  refine Eq.trans ?_ (Fin.sum_univ_eq_sum_range (fun j => rowOf (argX m c) R j * rowOf (argW m c) o ((t.val % 8 * 32 + i'.val + 1) * 257 + (j + 1))) 256)
  exact Finset.sum_congr rfl fun j _ => congrArg₂ (· * ·) (x_blk_at m c t r j R hR) (w_blk_at m c t j i' o _ rfl)

/-- The batch-tile block and the linear-weight block at a point, as arrays of extended reals. -/
abbrev blkX (c : Dev nD) (t : Fin cfg0.N) : S1024x256.Idx → EReal := iblk m c 0 t
abbrev blkL (c : Dev nD) (t : Fin cfg0.N) : S256x256.Idx → EReal := iblk m c 3 t

/-- The linear term computed at a point, at (r, o). -/
theorem lin_pt (c : Dev nD) (t : Fin cfg0.N) (r : Fin 1024) (o : Fin 256) (R : Fin 2048) (hR : R.val = t.val / 8 * 1024 + r.val) :
    (∑ j : Fin 256, blkX m c t (ix2 r j) * blkL m c t (ix2 j o))
      = linTerm (rowOf (argX m c) R) (rowOf (argW m c) o) := by
  unfold linTerm
  refine Eq.trans ?_ (Fin.sum_univ_eq_sum_range (fun j => rowOf (argX m c) R j * (rowOf (argW m c) o (j + 1) + rowOf (argW m c) o ((j + 1) * 257))) 256)
  exact Finset.sum_congr rfl fun j _ => congrArg₂ (· * ·) (x_blk_at m c t r j R hR) (wl_blk_at m c t j o)

/-- After the point numbered `n` the accumulator at (r, o) holds the linear term and the quadratic tiles 0 … n mod 8 of
    the batch row 1024 (n / 8) + r. -/
theorem acc_pt (c : Dev nD) : ∀ (n : ℕ) (hn : n < cfg0.N) (r : Fin 1024) (o : Fin 256) (R : Fin 2048), R.val = n / 8 * 1024 + r.val →
    accAt m c n hn (ix2 r o) = accForm (rowOf (argX m c) R) (rowOf (argW m c) o) (n % 8) := by
  intro n
  induction n with
  | zero =>
    intro hn r o R hR
    refine (congrFun (accAt_first m c ⟨0, hn⟩ rfl) (ix2 r o)).trans ?_
    refine (first_at (iblk m c 0 ⟨0, hn⟩) (iblk m c 2 ⟨0, hn⟩) (iblk m c 1 ⟨0, hn⟩) (iblk m c 3 ⟨0, hn⟩) r o).trans ?_
    refine (congrArg₂ (· + ·) (lin_pt m c ⟨0, hn⟩ r o R hR) (quad_pt m c ⟨0, hn⟩ r o R hR)).trans ?_
    exact accForm_zero _ _
  | succ n ih =>
    intro hn r o R hR
    by_cases h : (n + 1) % 8 = 0
    · refine (congrFun (accAt_first m c ⟨n + 1, hn⟩ h) (ix2 r o)).trans ?_
      refine (first_at (iblk m c 0 ⟨n + 1, hn⟩) (iblk m c 2 ⟨n + 1, hn⟩) (iblk m c 1 ⟨n + 1, hn⟩) (iblk m c 3 ⟨n + 1, hn⟩) r o).trans ?_
      refine (congrArg₂ (· + ·) (lin_pt m c ⟨n + 1, hn⟩ r o R hR) (quad_pt m c ⟨n + 1, hn⟩ r o R hR)).trans ?_
      show _ + quadTile _ _ ((n + 1) % 8) = accForm _ _ ((n + 1) % 8)
      rw [h]
      exact accForm_zero _ _
    · refine (congrFun (accAt_later m c ⟨n + 1, hn⟩ h) (ix2 r o)).trans ?_
      have hR' : R.val = n / 8 * 1024 + r.val := by rw [hR]; show (n + 1) / 8 * 1024 + r.val = _; omega
      have e := ih (Nat.lt_of_succ_lt hn) r o R hR'
      refine (later_at (iblk m c 0 ⟨n + 1, hn⟩) (iblk m c 2 ⟨n + 1, hn⟩) (iblk m c 1 ⟨n + 1, hn⟩) (accAt m c n (Nat.lt_of_succ_lt hn)) r o).trans ?_
      refine (congrArg₂ (· + ·) e (quad_pt m c ⟨n + 1, hn⟩ r o R hR)).trans ?_
      show accForm _ _ (n % 8) + quadTile _ _ ((n + 1) % 8) = accForm _ _ ((n + 1) % 8)
      rw [show (n + 1) % 8 = n % 8 + 1 from by omega]
      exact accForm_succ _ _ _

/-- The block stored at an i-tile-7 point, at (r, o): the kernel's arrangement of the layer for that row and output. -/
theorem out_pt (c : Dev nD) (t : Fin cfg0.N) (h7 : t.val % 8 = 7) (r : Fin 1024) (o : Fin 256) (R : Fin 2048) (hR : R.val = t.val / 8 * 1024 + r.val) :
    k0_pay5 (F := Ideal) (accAt m c t.val t.isLt) (iblk m c 4 t) (ix2 r o)
      = kernelForm (rowOf (argX m c) R) (rowOf (argW m c) o) (argB m c (ix1 o)) := by
  refine (out_at (accAt m c t.val t.isLt) (iblk m c 4 t) r o).trans ?_
  refine (congrArg₂ (· + ·) (acc_pt m c t.val t.isLt r o R hR) (cst_blk_at m c t o)).trans ?_
  rw [h7]
  rfl

/-- The kernel's [2048, 256] result as one function of the arguments. -/
def G (c : Dev nD) : S2048x256.Idx → EReal := fun i =>
  kernelForm (rowOf (argX m c) (⟨(i 0).val, (i 0).isLt⟩ : Fin 2048)) (rowOf (argW m c) (⟨(i 1).val, (i 1).isLt⟩ : Fin 256))
    (argB m c (ix1 (⟨(i 1).val, (i 1).isLt⟩ : Fin 256)))

theorem G_at (c : Dev nD) (i : S2048x256.Idx) (R : Fin 2048) (o : Fin 256) (h0 : (i 0).val = R.val) (h1 : (i 1).val = o.val) :
    G m c i = kernelForm (rowOf (argX m c) R) (rowOf (argW m c) o) (argB m c (ix1 o)) := by
  show kernelForm (rowOf (argX m c) (⟨(i 0).val, (i 0).isLt⟩ : Fin 2048)) (rowOf (argW m c) (⟨(i 1).val, (i 1).isLt⟩ : Fin 256))
    (argB m c (ix1 (⟨(i 1).val, (i 1).isLt⟩ : Fin 256))) = _
  rw [show (⟨(i 0).val, (i 0).isLt⟩ : Fin 2048) = R from Fin.ext h0, show (⟨(i 1).val, (i 1).isLt⟩ : Fin 256) = o from Fin.ext h1]

/-- What a write-back writes is its block of `G`. -/
theorem flushed_eq (c : Dev nD) (t : Fin cfg0.N) (hf : (cfg0.win 5).flush t = true) :
    (dats m 0 c).flushed 5 t = ((cfg0.win 5).blk t).view.read (Elt Ideal) (G m c) := by
  have h7 : t.val % 8 = 7 := (flush0_5 t).mp hf
  have hN : t.val < 16 := lt_of_lt_of_eq t.isLt (show cfg0.N = 16 from N_0)
  obtain ⟨-, -, -, -, -, -, -, -, -, -, -, e0, e1⟩ := idx_facts t
  show (cfg0.win 5).cut (grid0.coords t) ((dats m 0 c).after 5 t) = _
  rw [after_out]
  funext y
  obtain ⟨r, o, rfl⟩ : ∃ (r : Fin 1024) (o : Fin 256), y = ix2 r o := ⟨y 0, y 1, eq_ix2 y⟩
  rw [View.read_apply]
  have hR : t.val / 8 * 1024 + r.val < 2048 := by have := r.isLt; omega
  show k0_pay5 (F := Ideal) (accAt m c t.val t.isLt) (iblk m c 4 t) (ix2 r o) = G m c (((cfg0.win 5).blk t).view.emb (ix2 r o))
  rw [out_pt m c t h7 r o ⟨t.val / 8 * 1024 + r.val, hR⟩ rfl]
  refine (G_at m c _ ⟨t.val / 8 * 1024 + r.val, hR⟩ o ?_ ?_).symm
  · show win0_5.index t (0 : Fin 2) * 1024 + 1 * r.val = t.val / 8 * 1024 + r.val; rw [e0]; omega
  · show win0_5.index t (1 : Fin 2) * 256 + 1 * o.val = o.val; rw [e1]; omega

/-- An index of the result is in point `t`'s block iff each coordinate is in the block's range. -/
theorem mem_out_blk (t : Fin cfg0.N) (i : S2048x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v19).slice (win0_5.rect t)).set ↔ _
  rw [View.set_slice_whole, Rect.mem_set_unit]
  exact Iff.rfl

/-- The two written-back blocks cover the result. -/
theorem out_cover (i : S2048x256.Idx) : ∃ t : Fin cfg0.N, (cfg0.win 5).flush t = true ∧ i ∈ ((cfg0.win 5).blk t).view.set := by
  have hi0 : (i 0).val < 2048 := (i 0).isLt
  have hi1 : (i 1).val < 256 := (i 1).isLt
  have hN : cfg0.N = 16 := N_0
  let t : Fin cfg0.N := ⟨(i 0).val / 1024 * 8 + 7, by rw [hN]; omega⟩
  have ht : t.val = (i 0).val / 1024 * 8 + 7 := rfl
  obtain ⟨-, -, -, -, -, -, -, -, -, -, -, e0, e1⟩ := idx_facts t
  refine ⟨t, (flush0_5 t).mpr (by rw [ht]; omega), ?_⟩
  rw [mem_out_blk]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 256 ≤ (i 1).val ∧ (i 1).val < win0_5.index t (1 : Fin 2) * 256 + 256; rw [e1]; omega

/-- So the [2048, 256] result array ends holding `G`. -/
theorem final_out (c : Dev nD) : (dats m 0 c).arrAt 5 cfg0.N = G m c :=
  (dats m 0 c).arrAt_eq_of_cover 5 (G m c) (flushed_eq m c) out_cover

end Cert.KernelIdeal.HandValue

end
-- ==== Proof.KernelRun.lean ====
/-
  The kernel program's run, read: the line after the region recasts the [2048, 256] result, which holds the kernel's
  arrangement of the layer at every (row, output), to [2048, 16, 16]; the three arguments end as launched.
-/
import proofs.«100051_j31550829756606_2_alg».proof.Proof.AccValue

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.CrossSpec

variable (m : (ℓ : Loc nD τ sig) → Buf (Elt Ideal) ℓ) (ρ : Dev nD → PrngReg)

/-- The program's result array as a function of the arguments. -/
def result (c : Dev nD) : S2048x16x16.Idx → EReal := shapeCast S2048x16x16 (G m c) shapeCasts_S2048x256_S2048x16x16

/-- What the line after the region leaves in the result buffer. -/
theorem tail_eq (c : Dev nD) :
    @Eq (S2048x16x16.Idx → EReal) (Pipeline.afterTail₀ cfgs (dats m) 0 (V0 m) [hostOps1] c main_v20) (result m c) := by
  unfold Pipeline.afterTail₀
  show StableHlo.after hostOps1 _ (Proc.devRef .tc main_v20) = _
  after_results
  exact congrArg (fun v : S2048x256.Idx → EReal => shapeCast S2048x16x16 v shapeCasts_S2048x256_S2048x16x16)
    ((Pipeline.withArrays_arr spec0 launch0.win.arr_inj c _ _ 5).trans (final_out m c))

/-- Every weakly fair execution of the kernel program ends with the result array at `result` and the arguments unchanged. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v20 (Pipeline.mem_restRefs_of main_v20 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.HandValue

end
-- ==== Proof.RefValue.lean ====
/-
  The reference program read at one output index, over the extended reals: the value it writes at row r, output o is the
  flat outer product of the row with a leading one, contracted against the weight row, plus the bias (refForm).
-/
import proofs.«100051_j31550829756606_2_alg».proof.Proof.CrossSpec
import proofs.«100051_j31550829756606_2_alg».proof.Proof.Gen.ReferenceIdeal.Read
import Idealize.ShloMosaic.Lib.IdealHost

noncomputable section

open scoped BigOperators

namespace Cert.RefValue

open Idealize.ShloMosaic Idealize.ShloMosaic.ValueIdx Cert.ReferenceIdeal Cert.ReferenceIdeal.Read Cert.CrossSpec

/-- The row with a leading one, at column 0: the constant piece, whose word denotes 1. -/
theorem v1_zero (x0 : FVec Ideal S2048x256 .f32) (R : Fin 2048) :
    val_main_v1 (F := Ideal) x0 (ix2 R (0 : Fin 257)) = 1 := by
  unfold val_main_v1
  rw [concatenate_pair_apply_left (t := S2048x257) (s₁ := S2048x1) (s₂ := S2048x256) (1 : Fin S2048x257.rank)
    (val_main_v0 (F := Ideal)) x0 _ (ix2 R (0 : Fin 257)) rfl (ix2 R (0 : Fin 1))
    (fun b => by match b with | ⟨0, _⟩ => rfl | ⟨1, _⟩ => rfl)]
  rw [val_main_v0_apply, val_main_cst_apply]
  exact Ideal.ofBits_one_f32

/-- The row with a leading one, at a column p ≥ 1: the input row at column p - 1. -/
theorem v1_succ (x0 : FVec Ideal S2048x256 .f32) (R : Fin 2048) (p : Fin 257) (hp : 0 < p.val) :
    val_main_v1 (F := Ideal) x0 (ix2 R p) = x0 (ix2 R (⟨p.val - 1, by omega⟩ : Fin 256)) := by
  unfold val_main_v1
  exact concatenate_pair_apply_right (t := S2048x257) (s₁ := S2048x1) (s₂ := S2048x256) (1 : Fin S2048x257.rank)
    (val_main_v0 (F := Ideal)) x0 _ (ix2 R p) rfl rfl
    (ix2 R (⟨p.val - 1, by omega⟩ : Fin 256))
    (fun b hb => by match b, hb with | ⟨0, _⟩, _ => rfl | ⟨1, _⟩, hb => exact absurd rfl hb)
    (by show p.val - 1 + 1 = p.val; omega)

/-- The concatenated row read at any column is the input row with a leading one. -/
theorem v1_at (x0 : FVec Ideal S2048x256 .f32) (R : Fin 2048) (p : Fin 257) :
    val_main_v1 (F := Ideal) x0 (ix2 R p) = withOne (rowOf x0 R) p.val := by
  unfold withOne
  by_cases hp : p.val = 0
  · rw [if_pos hp]
    have h0 : p = 0 := Fin.ext hp
    subst h0
    exact v1_zero x0 R
  · have hlt : p.val - 1 < 256 := by omega
    rw [if_neg hp, v1_succ x0 R p (by omega)]
    unfold rowOf
    rw [dif_pos hlt]

/-- The outer product of the row with itself, read at (p, q): the product of the two entries. -/
theorem v6_at (x0 : FVec Ideal S2048x256 .f32) (R : Fin 2048) (p q : Fin 257) :
    val_main_v6 (F := Ideal) x0 (ix3 R p q) = withOne (rowOf x0 R) p.val * withOne (rowOf x0 R) q.val := by
  have e4 : idx_main_v2 (idx_main_v4 (ix3 R p q)) = ix2 R p :=
    funext fun a => Fin.ext (by match a with | ⟨0, _⟩ => rfl | ⟨1, _⟩ => rfl)
  have e5 : idx_main_v3 (idx_main_v5 (ix3 R p q)) = ix2 R q :=
    funext fun a => Fin.ext (by match a with | ⟨0, _⟩ => rfl | ⟨1, _⟩ => rfl)
  rw [val_main_v6_apply, val_main_v4_apply, val_main_v5_apply, val_main_v2_apply, val_main_v3_apply, e4, e5,
    v1_at, v1_at]
  rfl

/-- The flattened outer product at flat position k: the entries at k / 257 and k % 257 multiplied. -/
theorem v7_at (x0 : FVec Ideal S2048x256 .f32) (R : Fin 2048) (k : Fin 66049) :
    val_main_v7 (F := Ideal) x0 (ix2 R k)
      = withOne (rowOf x0 R) (k.val / 257) * withOne (rowOf x0 R) (k.val % 257) := by
  have hk : k.val < 66049 := k.isLt
  have hR : R.val < 2048 := R.isLt
  have e7 : idx_main_v7 (ix2 R k)
      = ix3 R (⟨k.val / 257, by omega⟩ : Fin 257) (⟨k.val % 257, by omega⟩ : Fin 257) :=
    funext fun a => Fin.ext (by
      match a with
      | ⟨0, _⟩ => show (R.val * 66049 + k.val) / 66049 = R.val; omega
      | ⟨1, _⟩ => show (R.val * 66049 + k.val) / 257 % 257 = k.val / 257; omega
      | ⟨2, _⟩ => show (R.val * 66049 + k.val) % 257 = k.val % 257; omega)
  rw [val_main_v7_apply, e7, v6_at]

/-- The transposed weight at (k, o) is the weight row o at flat position k. -/
theorem v8_at (x1 : FVec Ideal S256x66049 .f32) (k : Fin 66049) (o : Fin 256) :
    val_main_v8 (F := Ideal) x1 (ix2 k o) = rowOf x1 o k.val := by
  rw [val_main_v8_apply]
  unfold rowOf
  rw [dif_pos k.isLt]
  exact congrArg x1 (funext fun a => Fin.ext (by match a with | ⟨0, _⟩ => rfl | ⟨1, _⟩ => rfl))

/-- The contraction at (r, o): the flat outer product of the row summed against the weight row. -/
theorem v9_at (x0 : FVec Ideal S2048x256 .f32) (x1 : FVec Ideal S256x66049 .f32) (R : Fin 2048) (o : Fin 256) :
    val_main_v9 (F := Ideal) x0 x1 (ix2 R o)
      = ∑ k ∈ Finset.range 66049,
          (withOne (rowOf x0 R) (k / 257) * withOne (rowOf x0 R) (k % 257)) * rowOf x1 o k := by
  rw [val_main_v9_apply,
    ← Fin.sum_univ_eq_sum_range
      (fun k => (withOne (rowOf x0 R) (k / 257) * withOne (rowOf x0 R) (k % 257)) * rowOf x1 o k) 66049]
  refine Finset.sum_congr rfl fun k _ => ?_
  have el : lidx_main_v9 (ix2 R o) k = ix2 R k :=
    funext fun a => Fin.ext (by match a with | ⟨0, _⟩ => rfl | ⟨1, _⟩ => rfl)
  have er : ridx_main_v9 (ix2 R o) k = ix2 k o :=
    funext fun a => Fin.ext (by match a with | ⟨0, _⟩ => rfl | ⟨1, _⟩ => rfl)
  rw [el, er, v7_at, v8_at]

/-- The reference's value at row r, output o is the reference arrangement of the cross-matrix layer. -/
theorem ref_at (x0 : FVec Ideal S2048x256 .f32) (x1 : FVec Ideal S256x66049 .f32) (x2 : FVec Ideal S256 .f32)
    (R : Fin 2048) (o : Fin 256) :
    val_main_v12 (F := Ideal) x0 x1 x2 (ix2 R o) = refForm (rowOf x0 R) (rowOf x1 o) (x2 (ix1 o)) := by
  have eb : idx_main_v10 (idx_main_v11 (ix2 R o)) = ix1 o :=
    funext fun a => Fin.ext (by match a with | ⟨0, _⟩ => rfl)
  rw [val_main_v12_apply, val_main_v11_apply, val_main_v10_apply, eb, v9_at]
  rfl

end Cert.RefValue

end
-- ==== Proof.CrossAlgebra.lean ====
/-
  The algebra behind the cross-matrix layer: the kernel's arrangement (constant, linear term with the two border strips,
  quadratic term over the inner square in eight tiles of thirty-two rows) equals the reference's flat sum of the outer
  product of (1, x) with itself against the weight row, whenever every entry involved is a finite extended real.
  The identity is proved over the reals for a general feature count n = T * B and transferred through the coercion.
-/
import proofs.«100051_j31550829756606_2_alg».proof.Proof.CrossSpec

noncomputable section

open scoped BigOperators
open Finset

namespace Cert.CrossSpec

/-- A real row with a leading one: position 0 holds 1, position p + 1 holds `x p`. -/
def withOneR (x : ℕ → ℝ) (p : ℕ) : ℝ := if p = 0 then 1 else x (p - 1)

@[simp] theorem withOneR_zero (x : ℕ → ℝ) : withOneR x 0 = 1 := by simp [withOneR]

@[simp] theorem withOneR_succ (x : ℕ → ℝ) (p : ℕ) : withOneR x (p + 1) = x p := by simp [withOneR]

/-- A sum over `a * b` consecutive positions is the sum over `a` blocks of `b` positions each. -/
theorem sum_range_mul_eq (f : ℕ → ℝ) (a b : ℕ) :
    ∑ k ∈ range (a * b), f k = ∑ p ∈ range a, ∑ q ∈ range b, f (p * b + q) := by
  induction a with
  | zero => simp
  | succ a ih => rw [Nat.succ_mul, sum_range_add, ih, sum_range_succ]

/-- The flat sum over an m x m square against the outer product of (1, x) with itself, split by the leading one. -/
theorem real_flat (n m : ℕ) (hm : m = n + 1) (x W : ℕ → ℝ) :
    ∑ k ∈ range (m * m), (withOneR x (k / m) * withOneR x (k % m)) * W k
      = W 0 + ∑ j ∈ range n, x j * W (j + 1) + ∑ i ∈ range n, x i * W ((i + 1) * m)
        + ∑ i ∈ range n, (∑ j ∈ range n, x j * W ((i + 1) * m + (j + 1))) * x i := by
  subst hm
  rw [sum_range_mul_eq]
  have h : ∀ p ∈ range (n + 1), ∀ q ∈ range (n + 1),
      (withOneR x ((p * (n + 1) + q) / (n + 1)) * withOneR x ((p * (n + 1) + q) % (n + 1))) * W (p * (n + 1) + q)
        = (withOneR x p * withOneR x q) * W (p * (n + 1) + q) := by
    intro p _ q hq
    have hq := mem_range.mp hq
    have h1 : (p * (n + 1) + q) / (n + 1) = p := by
      rw [Nat.add_comm, Nat.add_mul_div_right _ _ (Nat.succ_pos n), Nat.div_eq_of_lt hq, Nat.zero_add]
    have h2 : (p * (n + 1) + q) % (n + 1) = q := by
      rw [Nat.add_comm, Nat.add_mul_mod_self_right, Nat.mod_eq_of_lt hq]
    rw [h1, h2]
  rw [sum_congr rfl (fun p hp => sum_congr rfl (h p hp))]
  rw [sum_range_succ']
  simp only [sum_range_succ', withOneR_zero, withOneR_succ, Nat.zero_mul, Nat.zero_add, Nat.add_zero, one_mul, mul_one]
  rw [sum_add_distrib]
  have h3 : ∀ i ∈ range n, ∑ j ∈ range n, x i * x j * W ((i + 1) * (n + 1) + (j + 1))
      = (∑ j ∈ range n, x j * W ((i + 1) * (n + 1) + (j + 1))) * x i := by
    intro i _
    rw [sum_mul]
    exact sum_congr rfl (fun j _ => by ring)
  rw [sum_congr rfl h3]
  ring

/-- The kernel's arrangement over the reals (n = T * B features, square side m = n + 1) equals the flat sum. -/
theorem real_cross (n m N T B : ℕ) (hm : m = n + 1) (hN : N = m * m) (hn : T * B = n) (x W : ℕ → ℝ) (b : ℝ) :
    ((∑ j ∈ range n, x j * (W (j + 1) + W ((j + 1) * m)))
        + ∑ s ∈ range T, ∑ i ∈ range B,
            (∑ j ∈ range n, x j * W ((s * B + i + 1) * m + (j + 1))) * x (s * B + i))
      + (W 0 + b)
    = (∑ k ∈ range N, (withOneR x (k / m) * withOneR x (k % m)) * W k) + b := by
  subst hN
  rw [real_flat n m hm x W]
  have hblk : ∑ i ∈ range n, (∑ j ∈ range n, x j * W ((i + 1) * m + (j + 1))) * x i
      = ∑ s ∈ range T, ∑ i ∈ range B,
          (∑ j ∈ range n, x j * W ((s * B + i + 1) * m + (j + 1))) * x (s * B + i) := by
    rw [← hn]
    exact sum_range_mul_eq (fun i => (∑ j ∈ range (T * B), x j * W ((i + 1) * m + (j + 1))) * x i) T B
  rw [← hblk]
  simp only [mul_add, sum_add_distrib]
  ring

/-- The coercion from the reals to the extended reals commutes with finite sums over a range. -/
theorem coe_sum_range (f : ℕ → ℝ) (n : ℕ) :
    ((∑ i ∈ range n, f i : ℝ) : EReal) = ∑ i ∈ range n, (f i : EReal) := by
  induction n with
  | zero => simp
  | succ n ih => rw [sum_range_succ, sum_range_succ, EReal.coe_add, ih]

/-- The row with a leading one, of a coerced real row, is the coerced real row with a leading one. -/
theorem withOne_coe (x : ℕ → ℝ) (p : ℕ) :
    withOne (fun j => (x j : EReal)) p = (withOneR x p : EReal) := by
  unfold withOne withOneR
  split_ifs <;> simp

/-- On coerced real data the kernel's arrangement is the coercion of the real expression. -/
theorem kernelForm_coe (x W : ℕ → ℝ) (b : ℝ) :
    kernelForm (fun j => (x j : EReal)) (fun k => (W k : EReal)) (b : EReal)
      = ((((∑ j ∈ range 256, x j * (W (j + 1) + W ((j + 1) * 257)))
          + ∑ s ∈ range 8, ∑ i ∈ range 32,
              (∑ j ∈ range 256, x j * W ((s * 32 + i + 1) * 257 + (j + 1))) * x (s * 32 + i))
        + (W 0 + b) : ℝ) : EReal) := by
  simp only [kernelForm, linTerm, quadTile, EReal.coe_add, EReal.coe_mul, coe_sum_range]

/-- On coerced real data the reference's arrangement is the coercion of the real expression. -/
theorem refForm_coe (x W : ℕ → ℝ) (b : ℝ) :
    refForm (fun j => (x j : EReal)) (fun k => (W k : EReal)) (b : EReal)
      = (((∑ k ∈ range 66049, (withOneR x (k / 257) * withOneR x (k % 257)) * W k) + b : ℝ) : EReal) := by
  simp only [refForm, withOne_coe, EReal.coe_add, EReal.coe_mul, coe_sum_range]

/-- The linear term only reads the first 256 features and weight positions below 66049. -/
theorem linTerm_congr {x x' W W' : ℕ → EReal} (hx : ∀ j, j < 256 → x j = x' j)
    (hW : ∀ k, k < 66049 → W k = W' k) : linTerm x W = linTerm x' W' := by
  unfold linTerm
  refine sum_congr rfl fun j hj => ?_
  have hj := mem_range.mp hj
  rw [hx j hj, hW (j + 1) (by omega), hW ((j + 1) * 257) (by omega)]

/-- A quadratic tile `s < 8` only reads the first 256 features and weight positions below 66049. -/
theorem quadTile_congr {x x' W W' : ℕ → EReal} (hx : ∀ j, j < 256 → x j = x' j)
    (hW : ∀ k, k < 66049 → W k = W' k) (s : ℕ) (hs : s < 8) : quadTile x W s = quadTile x' W' s := by
  unfold quadTile
  refine sum_congr rfl fun i hi => ?_
  have hi := mem_range.mp hi
  rw [hx (s * 32 + i) (by omega)]
  congr 1
  refine sum_congr rfl fun j hj => ?_
  have hj := mem_range.mp hj
  rw [hx j hj, hW ((s * 32 + i + 1) * 257 + (j + 1)) (by omega)]

/-- The kernel's arrangement only reads the first 256 features and weight positions below 66049. -/
theorem kernelForm_congr {x x' W W' : ℕ → EReal} (b : EReal) (hx : ∀ j, j < 256 → x j = x' j)
    (hW : ∀ k, k < 66049 → W k = W' k) : kernelForm x W b = kernelForm x' W' b := by
  unfold kernelForm
  rw [linTerm_congr hx hW, hW 0 (by omega),
    sum_congr rfl (fun s hs => quadTile_congr hx hW s (mem_range.mp hs))]

/-- The row with a leading one, below position 257, only reads the first 256 features. -/
theorem withOne_congr {x x' : ℕ → EReal} (hx : ∀ j, j < 256 → x j = x' j) (p : ℕ) (hp : p < 257) :
    withOne x p = withOne x' p := by
  unfold withOne
  split_ifs with h
  · rfl
  · exact hx (p - 1) (by omega)

/-- The reference's arrangement only reads the first 256 features and weight positions below 66049. -/
theorem refForm_congr {x x' W W' : ℕ → EReal} (b : EReal) (hx : ∀ j, j < 256 → x j = x' j)
    (hW : ∀ k, k < 66049 → W k = W' k) : refForm x W b = refForm x' W' b := by
  unfold refForm
  refine congrArg (fun t => t + b) ?_
  refine sum_congr rfl fun k hk => ?_
  have hk := mem_range.mp hk
  rw [hW k hk, withOne_congr hx (k / 257) (by omega), withOne_congr hx (k % 257) (by omega)]

/-- On finite data the kernel's arrangement and the reference's arrangement of the cross-matrix layer agree. -/
theorem kernelForm_eq_refForm (x W : ℕ → EReal) (b : EReal)
    (hx : ∀ j, j < 256 → x j ≠ ⊤ ∧ x j ≠ ⊥) (hW : ∀ k, k < 66049 → W k ≠ ⊤ ∧ W k ≠ ⊥) (hb : b ≠ ⊤ ∧ b ≠ ⊥) :
    kernelForm x W b = refForm x W b := by
  have hx' : ∀ j, j < 256 → x j = (fun j => (((x j).toReal : ℝ) : EReal)) j :=
    fun j hj => (EReal.coe_toReal (hx j hj).1 (hx j hj).2).symm
  have hW' : ∀ k, k < 66049 → W k = (fun k => (((W k).toReal : ℝ) : EReal)) k :=
    fun k hk => (EReal.coe_toReal (hW k hk).1 (hW k hk).2).symm
  have hb' : b = ((b.toReal : ℝ) : EReal) := (EReal.coe_toReal hb.1 hb.2).symm
  rw [kernelForm_congr b hx' hW', refForm_congr b hx' hW', hb', kernelForm_coe, refForm_coe]
  exact congrArg _ (real_cross 256 257 66049 8 32 (by norm_num) (by norm_num) (by norm_num)
    (fun j => (x j).toReal) (fun k => (W k).toReal) b.toReal)

end Cert.CrossSpec

end
-- ==== Proof.Finite.lean ====
/-
  The precondition "every float input is finite", read back pointwise.

  The printed predicate is the conjunction of three `all(|a| < +∞)`, one per input array. Over the extended
  reals the absolute value is `max x (-x)`, the word `0x7F800000` denotes `⊤`, and `max x (-x) < ⊤` holds
  exactly when `x` is neither `⊤` nor `⊥`. So the predicate being true says that every element of every
  input is a real number.
-/
import proofs.«100051_j31550829756606_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx
open Cert.Pre_finite_inputs

/-- The single-precision pattern `0x7F800000` (sign 0, exponent all ones, fraction 0) denotes `+∞`. -/
theorem ofBits_inf : Ideal.ofBits .f32 0x7F800000#32 = (⊤ : EReal) := by
  simp [Ideal.ofBits, Ideal.ieee]

/-- On the extended reals, `max x (-x) < ⊤` (as a comparison word equal to 1) says `x` is finite:
    `max ⊤ _ = ⊤`, and `-⊥ = ⊤` so `max ⊥ (-⊥) = ⊤` as well. -/
theorem finite_of_abs_lt_top (x : EReal) (h : Ideal.cmp .olt (max x (-x)) ⊤ = 1#1) : x ≠ ⊤ ∧ x ≠ ⊥ := by
  have hlt : max x (-x) < ⊤ := by
    by_contra hn
    simp [Ideal.cmp, hn] at h
  constructor
  · rintro rfl
    simp at hlt
  · rintro rfl
    simp at hlt

/-- One element of `|a| < broadcast(+∞)` being 1 says that element of `a` is finite. The absolute value, the
    comparison, the broadcast of a scalar and the constant all read through at an index by definition. -/
theorem elem_finite {s : Shape} (a : FVec Ideal s .f32) (hb : S_.BroadcastsInDim s (![] : Fin 0 → Fin s.rank)) (i : s.Idx)
    (e : cmpf .olt (Host.absf a) (broadcastInDim s ![] hb (constant (F := Ideal) S_ .f32 0x7F800000#32)) i = 1#1) :
    (a i : EReal) ≠ ⊤ ∧ (a i : EReal) ≠ ⊥ := by
  refine finite_of_abs_lt_top (a i) ?_
  rw [← ofBits_inf]
  exact e

/-- The scalar shape has one index. -/
instance : Subsingleton S_.Idx := ⟨fun a b => funext fun d => d.elim0⟩

/-- THE PRECONDITION, POINTWISE: if the printed predicate is true then every element of each of the three inputs
    is a real number (neither `⊤` nor `⊥`). The predicate's one word is the `and` of three reductions by `and`;
    each reduction being 1 gives each compared element being 1, and that is finiteness of the element. -/
theorem finite_of_fn (a0 : FVec Ideal S2048x256 .f32) (a1 : FVec Ideal S256x66049 .f32) (a2 : FVec Ideal S256 .f32)
    (h : Cert.Pre_finite_inputs.fn (F := Ideal) a0 a1 a2 = fun _ => 1#1) :
    (∀ i, (a0 i : EReal) ≠ ⊤ ∧ (a0 i : EReal) ≠ ⊥) ∧ (∀ i, (a1 i : EReal) ≠ ⊤ ∧ (a1 i : EReal) ≠ ⊥)
      ∧ (∀ i, (a2 i : EReal) ≠ ⊤ ∧ (a2 i : EReal) ≠ ⊥) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact elem_finite a0 _ i (Host.reduce_andi_all _ _ _ _ _ h0' i)
  · exact elem_finite a1 _ i (Host.reduce_andi_all _ _ _ _ _ h1 i)
  · exact elem_finite a2 _ i (Host.reduce_andi_all _ _ _ _ _ h2 i)

end Cert.Finite

end
-- ==== Proof.lean ====
/-
  The certificate of the cross-matrix layer kernel against its reference:
    y[r, o] = sum over p, q in 0 … 256 of x1[r, p] x1[r, q] W[o, 257 p + q] + b[o],   x1[r, ·] = (1, x[r, ·]).
  The kernel splits off the leading one — a constant W[o, 0] + b[o], a linear term over the two border strips of the
  weight square, and the quadratic term over the inner 256 x 256 square, accumulated over eight tiles of thirty-two rows in
  a scratch accumulator across the grid — while the reference contracts the flat outer product against the weight row.
  The two arrangements agree by distributivity, which on the extended reals needs every entry to be a real number: that
  is the precondition. A change of float format is the identity at the exact values, so the kernel's bf16 copies do not
  matter. Each program's frame — it runs to the end, faults nowhere, leaves its arguments as launched — comes from its run:
  the kernel's from the body obligation over the three control cases of a grid point (first, later, last i-tile), the
  reference's from its straight-line run. The idealization rewrote nothing, so `preserves` has nothing to state.
-/
import proofs.«100051_j31550829756606_2_alg».proof.Defs
import proofs.«100051_j31550829756606_2_alg».proof.Proof.Gen.Kernel
import proofs.«100051_j31550829756606_2_alg».proof.Proof.Gen.Kernel.Skeleton
import proofs.«100051_j31550829756606_2_alg».proof.Proof.Gen.Kernel.Launch
import proofs.«100051_j31550829756606_2_alg».proof.Proof.Gen.Kernel.Points
import proofs.«100051_j31550829756606_2_alg».proof.Proof.Gen.Kernel.Frame
import proofs.«100051_j31550829756606_2_alg».proof.Proof.Gen.KernelIdeal
import proofs.«100051_j31550829756606_2_alg».proof.Proof.Gen.KernelIdeal.Skeleton
import proofs.«100051_j31550829756606_2_alg».proof.Proof.Gen.KernelIdeal.Launch
import proofs.«100051_j31550829756606_2_alg».proof.Proof.Gen.KernelIdeal.Points
import proofs.«100051_j31550829756606_2_alg».proof.Proof.Gen.KernelIdeal.Frame
import proofs.«100051_j31550829756606_2_alg».proof.Proof.Gen.ReferenceIdeal
import proofs.«100051_j31550829756606_2_alg».proof.Proof.Gen.ReferenceIdeal.Run
import proofs.«100051_j31550829756606_2_alg».proof.Proof.Gen.ReferenceIdeal.Read
import proofs.«100051_j31550829756606_2_alg».proof.Proof.Gen.Pre_finite_inputs
import proofs.«100051_j31550829756606_2_alg».proof.Proof.BodyK
import proofs.«100051_j31550829756606_2_alg».proof.Proof.KernelRun
import proofs.«100051_j31550829756606_2_alg».proof.Proof.RefValue
import proofs.«100051_j31550829756606_2_alg».proof.Proof.CrossAlgebra
import proofs.«100051_j31550829756606_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.CrossSpec

/-- A row of an array of real numbers is real at every position in range. -/
theorem rowOf_real {A B : ℕ} (X : (⟨2, ![A, B]⟩ : Shape).Idx → EReal) (hX : ∀ i, X i ≠ ⊤ ∧ X i ≠ ⊥) (R : Fin A) :
    ∀ j, j < B → rowOf X R j ≠ ⊤ ∧ rowOf X R j ≠ ⊥ := by
  intro j hj
  rw [rowOf, dif_pos hj]
  exact hX _

/-- Under the precondition the reference's [2048, 256] stage and the kernel's [2048, 256] result are one function of the
    arguments: at each (row, output) the two arrangements of the layer, equal on real entries. -/
theorem stage_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v12 (F := Ideal)
        (Cert.KernelIdeal.HandValue.argX m c) (Cert.KernelIdeal.HandValue.argW m c) (Cert.KernelIdeal.HandValue.argB m c)
      = Cert.KernelIdeal.HandValue.G m c := by
  obtain ⟨hx, hW, hb⟩ := Cert.Finite.finite_of_fn _ _ _ (hpre c)
  funext i
  obtain ⟨R, o, rfl⟩ : ∃ (R : Fin 2048) (o : Fin 256), i = ix2 R o := ⟨i 0, i 1, eq_ix2 i⟩
  rw [Cert.RefValue.ref_at, Cert.KernelIdeal.HandValue.G_at m c (ix2 R o) R o rfl rfl]
  exact (kernelForm_eq_refForm _ _ _ (rowOf_real _ hx R) (rowOf_real _ hW o) (hb _)).symm

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: nothing to state. -/
theorem preserves : Cert.preserves_Kernel_KernelIdeal := trivial

/-- Both programs end with the same recast of a [2048, 256] array, the kernel's holding its arrangement of the layer
    (the kernel's run) and the reference's holding its own (the reference's run), equal under the precondition. -/
theorem algebraic : Cert.algebraic_KernelIdeal_ReferenceIdeal := by
  intro m ρ m' ρ' hpre hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v13_eq]
  unfold Cert.ReferenceIdeal.Read.val_main_v13 Cert.KernelIdeal.HandValue.result
  exact congrArg (fun v : Cert.KernelIdeal.S2048x256.Idx → EReal => shapeCast Cert.KernelIdeal.S2048x16x16 v Cert.KernelIdeal.Facts₀.shapeCasts_S2048x256_S2048x16x16)
    (stage_eq m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
